-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128 .f32) (main_arg6 : FVec F S128x1 .f32) (main_arg7 : FVec F S1 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x1 .f32) (main_arg7 : FVec F S1 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S128x2 : Shape := ⟨2, ![128, 2]⟩
abbrev S2 : Shape := ⟨1, ![2]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 72
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S128x1, .f32⟩
  | .hbm, ⟨9, _⟩ => ⟨S1, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .bf16⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000x128, .bf16⟩
  | .hbm, ⟨42, _⟩ => ⟨S850000x128, .f32⟩
  | .hbm, ⟨43, _⟩ => ⟨S_, .f32⟩
  | .hbm, ⟨44, _⟩ => ⟨S50000x128, .f32⟩
  | .hbm, ⟨45, _⟩ => ⟨S850000x1, .i32⟩
  | .hbm, ⟨46, _⟩ => ⟨S50000x128, .f32⟩
  | .hbm, ⟨47, _⟩ => ⟨S50000x1, .f32⟩
  | .hbm, ⟨48, _⟩ => ⟨S1x128, .f32⟩
  | .hbm, ⟨49, _⟩ => ⟨S50000x128, .bf16⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .bf16⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S128x2, .f32⟩
  | .hbm, ⟨65, _⟩ => ⟨S2, .f32⟩
  | .hbm, ⟨66, _⟩ => ⟨S50000x1, .f32⟩
  | .hbm, ⟨67, _⟩ => ⟨S1x128, .f32⟩
  | .hbm, ⟨68, _⟩ => ⟨S1x2, .f32⟩
  | .hbm, ⟨69, _⟩ => ⟨S50000x2, .f32⟩
  | .hbm, ⟨70, _⟩ => ⟨S50000x1, .f32⟩
  | .hbm, ⟨71, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x2, .f32⟩
  | .local _ .vmem, ⟨21, _⟩ => ⟨S1x2, .f32⟩
  | .local _ .vmem, ⟨22, _⟩ => ⟨S5000x2, .f32⟩
  | .local _ .vmem, ⟨23, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S128x1_S128x1_S128x2_d1 : Shape.Concatenates [S128x1, S128x1] S128x2 1
  concatenates_S1_S1_S2_d0 : Shape.Concatenates [S1, S1] S2 0
  shapeCasts_S2_S1x2 : S2.ShapeCasts S1x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  slices_S50000x2_S50000x1_0_0 : S50000x2.Slices ![0, 0] S50000x1
  slices_S50000x2_S50000x1_0_1 : S50000x2.Slices ![0, 1] S50000x1
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .bf16 = 32 ∨ (Rect.block (s := S50000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x2.size a ≤ S128x2.size a
  hwx2_3 : ∀ i : grid2.Coords, EltTy.bits .f32 = 32 ∨ (Rect.block (s := S128x2) S128x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x2.size a ≤ S50000x2.size a
  hwx2_5 : ∀ i : grid2.Coords, EltTy.bits .f32 = 32 ∨ (Rect.block (s := S50000x2) S5000x2.size (cc2_transform_5 i) (hinb2_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S128x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S5000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S128x1, .f32⟩
  | .hbm, ⟨9, _⟩ => ⟨S1, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x128, .f32⟩
  | .hbm, ⟨83, _⟩ => ⟨S850000x1, .f32⟩
  | .hbm, ⟨84, _⟩ => ⟨S850000x128, .f32⟩
  | .hbm, ⟨85, _⟩ => ⟨S850000x128, .f32⟩
  | .hbm, ⟨86, _⟩ => ⟨S_, .f32⟩
  | .hbm, ⟨87, _⟩ => ⟨S50000x128, .f32⟩
  | .hbm, ⟨88, _⟩ => ⟨S850000x1, .i32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S50000x1, .f32⟩
  | .hbm, ⟨97, _⟩ => ⟨S1x1, .f32⟩
  | .hbm, ⟨98, _⟩ => ⟨S50000x1, .f32⟩
  | .hbm, ⟨99, _⟩ => ⟨S50000x1, .f32⟩
  | .hbm, ⟨100, _⟩ => ⟨S50000x1, .f32⟩
  | .hbm, ⟨101, _⟩ => ⟨S1x1, .f32⟩
  | .hbm, ⟨102, _⟩ => ⟨S50000x1, .f32⟩
  | .hbm, ⟨103, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x1_S50000x1_1_0_0_1_n_n_wf : DotDims.WF S50000x128 S128x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel's run with its two results named.

  @main is nine segments: three stretches of host operations, the first matrix product scaled per node, a stretch
  (gather along the edges, sum per destination), the middle layer, a stretch, the output heads, and a last stretch
  that cuts the two output columns apart. Every weakly fair execution terminates, and in every final state each
  unscoped buffer holds the fold of those segments over the launch memory. Here that fact is kept for the two
  result buffers (their contents are the last boundary's, `W9`), beside the arguments ending as launched.
-/
import proofs.«110548_j47682726920388_2_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the two result buffers end at the last
    boundary's contents and the argument arrays end as launched. -/
theorem run_named : θ_run defs (onTc (τ := τ) (main (F := F))) ⟨m, fun _ => 0, ρ⟩ (fun r => ∀ c : Dev nD,
      r.2.mem ((c.tc : Thread nD τ).loc main_v48) = W9 m ρ c (Proc.devRef .tc main_v48)
      ∧ r.2.mem ((c.tc : Thread nD τ).loc main_v49) = W9 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v48 (by decide)),
       h c _ (mem_uc main_v49 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.NamedRun

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«110548_j47682726920388_2_alg».proof.Proof.LibPlainMatmul
import proofs.«110548_j47682726920388_2_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibLayerForms.lean ====
/-
  The whole-array forms of the three dense stages, over the extended reals, and the fact that makes them computable
  block by block: each entry depends on one row of the row-indexed operands only.

  * `scaledProduct X W D`: entry (r, q) is (Σ_k X(r, k) · W(k, q)) · D(r, 0) — a matrix product whose row r is scaled by
    the r-th entry of a one-column array.
  * `activated A D B`: entry (r, k) is max(A(r, k) · D(r, 0) + B(0, k), 0) — scale each row, add a row vector, take the
    positive part. The zero is kept as the float word both programs write.
  * `biasedProduct X W B`: entry (r, q) is Σ_k X(r, k) · W(k, q) + B(0, q).
-/
import proofs.«110548_j47682726920388_2_alg».proof.Proof.LibMatrixProduct

noncomputable section

namespace Cert.Gcn

open Idealize.ShloMosaic Idealize.ShloMosaic.ValueIdx Cert.MatrixProduct

/-- A matrix product with each row scaled by that row's entry of a one-column array. -/
def scaledProduct {M K N : ℕ} (X : (⟨2, ![M, K]⟩ : Shape).Idx → EReal) (W : (⟨2, ![K, N]⟩ : Shape).Idx → EReal)
    (D : (⟨2, ![M, 1]⟩ : Shape).Idx → EReal) : (⟨2, ![M, N]⟩ : Shape).Idx → EReal :=
  fun i => mm X W i * D (ix2 (i 0) (0 : Fin 1))

/-- Each row scaled by its entry of a one-column array, a row vector added, the positive part taken. -/
def activated {M K : ℕ} (A : (⟨2, ![M, K]⟩ : Shape).Idx → EReal) (D : (⟨2, ![M, 1]⟩ : Shape).Idx → EReal)
    (B : (⟨2, ![1, K]⟩ : Shape).Idx → EReal) : (⟨2, ![M, K]⟩ : Shape).Idx → EReal :=
  fun i => max (A i * D (ix2 (i 0) (0 : Fin 1)) + B (ix2 (0 : Fin 1) (i 1))) (Ideal.ofBits .f32 0x00000000#32)

/-- A matrix product plus a row vector. -/
def biasedProduct {M K N : ℕ} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => mm X W i + B (ix2 (0 : Fin 1) (i 1))

/-- Row `p` of the activation of a block is row `r` of the activation of the whole arrays, when row `p` of the block is
    row `r` of the array, its factor is that row's factor, and the row vectors agree. -/
theorem activated_row {M R K : ℕ} (A : (⟨2, ![M, K]⟩ : Shape).Idx → EReal) (D : (⟨2, ![M, 1]⟩ : Shape).Idx → EReal)
    (B : (⟨2, ![1, K]⟩ : Shape).Idx → EReal) (x0 : (⟨2, ![R, K]⟩ : Shape).Idx → EReal) (x1 : (⟨2, ![R, 1]⟩ : Shape).Idx → EReal)
    (x2 : (⟨2, ![1, K]⟩ : Shape).Idx → EReal) (p : Fin R) (r : Fin M)
    (h0 : ∀ k : Fin K, x0 (ix2 p k) = A (ix2 r k)) (h1 : x1 (ix2 p (0 : Fin 1)) = D (ix2 r (0 : Fin 1)))
    (h2 : ∀ k : Fin K, x2 (ix2 (0 : Fin 1) k) = B (ix2 (0 : Fin 1) k)) (k : Fin K) :
    activated x0 x1 x2 (ix2 p k) = activated A D B (ix2 r k) := by
  show max (x0 (ix2 p k) * x1 (ix2 p (0 : Fin 1)) + x2 (ix2 (0 : Fin 1) k)) _
    = max (A (ix2 r k) * D (ix2 r (0 : Fin 1)) + B (ix2 (0 : Fin 1) k)) _
  rw [h0 k, h1, h2 k]

/-- Entry `(p, q)` of a block's product, scaled by the block's factor of row `p`, is entry `(r, q)` of the whole scaled
    product, when row `p` of the block is row `r`, the right factors agree on column `q`, and the factors agree. -/
theorem scaledProduct_row {M R K N : ℕ} (X : (⟨2, ![M, K]⟩ : Shape).Idx → EReal) (W : (⟨2, ![K, N]⟩ : Shape).Idx → EReal)
    (D : (⟨2, ![M, 1]⟩ : Shape).Idx → EReal) (x0 : (⟨2, ![R, K]⟩ : Shape).Idx → EReal) (x1 : (⟨2, ![K, N]⟩ : Shape).Idx → EReal)
    (x2 : (⟨2, ![R, 1]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 p (0 : Fin 1)) = D (ix2 r (0 : Fin 1))) :
    mm x0 x1 (ix2 p q) * x2 (ix2 p (0 : Fin 1)) = scaledProduct X W D (ix2 r q) := by
  show _ = mm X W (ix2 r q) * D (ix2 r (0 : Fin 1))
  rw [h2]
  exact congrArg (· * D (ix2 r (0 : Fin 1))) (mm_of_row_col X W x0 x1 (ix2 p q) (ix2 r q) h0 h1)

/-- Entry `(p, q)` of a block's product plus a row vector is entry `(r, q)` of the whole biased product. -/
theorem biasedProduct_row {M R K N : ℕ} (X : (⟨2, ![M, K]⟩ : Shape).Idx → EReal) (W : (⟨2, ![K, N]⟩ : Shape).Idx → EReal)
    (B : (⟨2, ![1, N]⟩ : Shape).Idx → EReal) (x0 : (⟨2, ![R, K]⟩ : Shape).Idx → EReal) (x1 : (⟨2, ![K, N]⟩ : Shape).Idx → EReal)
    (x2 : (⟨2, ![1, N]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 (0 : Fin 1) q) = B (ix2 (0 : Fin 1) q)) :
    mm x0 x1 (ix2 p q) + x2 (ix2 (0 : Fin 1) q) = biasedProduct X W B (ix2 r q) := by
  show _ = mm X W (ix2 r q) + B (ix2 (0 : Fin 1) q)
  rw [h2]
  exact congrArg (· + B (ix2 (0 : Fin 1) q)) (mm_of_row_col X W x0 x1 (ix2 p q) (ix2 r q) h0 h1)

end Cert.Gcn

end
-- ==== Proof.Region0.lean ====
import proofs.«110548_j47682726920388_2_alg».proof.Proof.Gen.KernelIdeal.Frame
import proofs.«110548_j47682726920388_2_alg».proof.Proof.LibMatrixProduct
import proofs.«110548_j47682726920388_2_alg».proof.Proof.LibColumnBroadcast
import Idealize.ShloMosaic.Lib.Pipeline.Value
import Idealize.ShloMosaic.Lib.ValueIdx
import Idealize.ShloMosaic.Lib.ValueLayout
import proofs.«110548_j47682726920388_2_alg».proof.Proof.LibLayerForms
set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.MatrixProduct
open Cert.Gcn

/-! # The first pallas_call: the node features times the first weight matrix, each row scaled by its node's factor

The grid has ten points; point `t` works on rows `5000·t … 5000·t + 4999`. Its block of the features is those rows, the
weight matrix is taken whole, and the factors' block is the same rows of the one-column array of factors. Entry
`(p, q)` of the block it writes is `(Σ_k x(p, k) · w(k, q)) · d(p, 0)`, which is entry `(5000·t + p, q)` of the scaled
product of the whole arrays: an entry of a product depends on one row of the left factor only. The ten blocks tile the
output array, so after the region it holds the scaled product of the three arrays as the region found them. -/

/-- The body's stored value at an entry: the block product there, scaled by the block's factor of that row. The
    roundings to the narrow float format on the way into the matrix unit are the identity at the extended reals. -/
theorem body_entry (x0 : Vec Ideal S5000x128 .f32) (x1 : Vec Ideal S128x128 .f32) (x2 : Vec Ideal S5000x1 .f32)
    (p : Fin 5000) (q : Fin 128) :
    k0_pay1 (F := Ideal) x0 x1 x2 (ix2 p q) = mm x0 x1 (ix2 p q) * x2 (ix2 p (0 : Fin 1)) := by
  show (matmul dot_S5000x128_S128x128_S5000x128_1_0_0_1_n_n none (truncf .bf16 x0 bitsLt_bf16_f32) (truncf .bf16 x1 bitsLt_bf16_f32)
      (constant (F := Ideal) S5000x128 .f32 0x00000000#32) (ix2 p q))
    * (broadcastTo S5000x128 (shapeCast S5000x1 x2 shapeCasts_S5000x1_S5000x1) broadcasts_S5000x1_S5000x128 (ix2 p q)) = _
  rw [shapeCast_self, broadcastTo_a1_ab_apply]
  exact congrArg (· * x2 (ix2 p (0 : Fin 1)))
    (congrFun (matmul_zero_eq_mm dot_S5000x128_S128x128_S5000x128_1_0_0_1_n_n.wf none (truncf .bf16 x0 bitsLt_bf16_f32) (truncf .bf16 x1 bitsLt_bf16_f32)) (ix2 p q))

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the output's, the features' and the factors' blocks move down with the point, the
    weight matrix stays; no window moves along the columns. -/
theorem block_indices : ∀ t : Fin cfg0.N,
    win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of that function of the arrays as the region finds them. -/
theorem flushed_eq (c : Dev nD) (t : Fin cfg0.N) :
    (dat0 (F := Ideal) V c).flushed 3 t = ((cfg0.win 3).blk t).view.read (Elt Ideal) (scaledProduct (V c main_arg0) (V c main_arg2) (V c main_v15)) := by
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S128x128) zero_offsets, View.ld_unit_zero (S := S5000x1) zero_offsets]
  have ht : t.val < 10 := Nat.lt_of_lt_of_eq t.isLt N_0
  obtain ⟨e30, e31, e00, e01, e10, e11, e20, e21⟩ := block_indices t
  funext j
  have hp : (j 0).val < 5000 := (j 0).isLt
  have hq : (j 1).val < 128 := (j 1).isLt
  obtain ⟨p, q, hj⟩ : ∃ (p : Fin 5000) (q : Fin 128), j = ix2 p q :=
    ⟨⟨(j 0).val, hp⟩, ⟨(j 1).val, hq⟩, by funext a; match a with | ⟨0, _⟩ => rfl | ⟨1, _⟩ => rfl⟩
  subst hj
  show k0_pay1 (F := Ideal) (iblk0 V c 0 t) (iblk0 V c 1 t) (iblk0 V c 2 t) (ix2 p q) = (scaledProduct (V c main_arg0) (V c main_arg2) (V c main_v15)) (((cfg0.win 3).blk t).view.emb (ix2 p q))
  refine (body_entry (iblk0 V c 0 t) (iblk0 V c 1 t) (iblk0 V c 2 t) p q).trans ?_
  have hr : t.val * 5000 + p.val < 50000 := by have := p.isLt; omega
  have hemb : ((cfg0.win 3).blk t).view.emb (ix2 p q) = ix2 (⟨t.val * 5000 + p.val, hr⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  rw [hemb]
  have h0 : ∀ k : Fin 128, iblk0 V c 0 t (ix2 p k) = V c main_arg0 (ix2 (⟨t.val * 5000 + p.val, hr⟩ : Fin 50000) k) := fun k => by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ∀ k : Fin 128, iblk0 V c 1 t (ix2 k q) = V c main_arg2 (ix2 k q) := fun k => by
    show V c main_arg2 (((cfg0.win 1).blk t).view.emb (ix2 k q)) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have h2 : iblk0 V c 2 t (ix2 p (0 : Fin 1)) = V c main_v15 (ix2 (⟨t.val * 5000 + p.val, hr⟩ : Fin 50000) (0 : Fin 1)) := by
    show V c main_v15 (((cfg0.win 2).blk t).view.emb (ix2 p (0 : Fin 1))) = _
    refine congrArg (V c main_v15) ?_
    funext a; apply Fin.ext
    match a with
    | ⟨0, _⟩ => show win0_2.index t (0 : Fin 2) * 5000 + 1 * p.val = t.val * 5000 + p.val; omega
    | ⟨1, _⟩ => show win0_2.index t (1 : Fin 2) * 1 + 1 * 0 = 0; omega
  exact scaledProduct_row (V c main_arg0) (V c main_arg2) (V c main_v15) (iblk0 V c 0 t) (iblk0 V c 1 t) (iblk0 V c 2 t) p q (⟨t.val * 5000 + p.val, hr⟩ : Fin 50000) h0 h1 h2

/-- An index of the output array is in point `t`'s block iff each coordinate is in the block's range on its axis. -/
theorem mem_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- The ten blocks tile the output: row `r` is in the block of point `r / 5000`. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 5000 < cfg0.N := by rw [show cfg0.N = 10 from N_0]; omega
  refine ⟨⟨(i 0).val / 5000, hN⟩, flush0_3 _, ?_⟩
  have e0 := (block_indices ⟨(i 0).val / 5000, hN⟩).1
  have e1 := (block_indices ⟨(i 0).val / 5000, hN⟩).2.1
  rw [mem_block]
  intro a
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, hN⟩ (1 : Fin 2) * 128 ≤ (i 1).val
      ∧ (i 1).val < win0_3.index ⟨(i 0).val / 5000, hN⟩ (1 : Fin 2) * 128 + 128
    rw [e1]; omega

/-- THE OUTPUT ARRAY after the region, as one function of the arrays the region entered with. -/
theorem final (c : Dev nD) :
    (dat0 (F := Ideal) V c).arrAt 3 cfg0.N = scaledProduct (V c main_arg0) (V c main_arg2) (V c main_v15) :=
  (dat0 (F := Ideal) V c).arrAt_eq_of_cover 3 _ (fun t _ => flushed_eq V c t) covered

end Cert.KernelIdeal.Region0

end
-- ==== Proof.Region1.lean ====
import proofs.«110548_j47682726920388_2_alg».proof.Proof.Gen.KernelIdeal.Frame
import proofs.«110548_j47682726920388_2_alg».proof.Proof.LibMatrixProduct
import proofs.«110548_j47682726920388_2_alg».proof.Proof.LibColumnBroadcast
import Idealize.ShloMosaic.Lib.Pipeline.Value
import Idealize.ShloMosaic.Lib.ValueIdx
import Idealize.ShloMosaic.Lib.ValueLayout
import proofs.«110548_j47682726920388_2_alg».proof.Proof.LibLayerForms
set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.MatrixProduct
open Cert.Gcn

/-! # The middle pallas_call: scale, bias and clip the aggregated rows, multiply by the second weight matrix, scale again

Point `t` of the ten works on rows `5000·t … 5000·t + 4999` of the aggregated features and of the one-column array of
factors; the bias row and the weight matrix are taken whole. Entry `(p, q)` of the block it writes is
`(Σ_k max(a(p, k) · d(p, 0) + b(0, k), 0) · w(k, q)) · d(p, 0)`: entry `(5000·t + p, q)` of the scaled product of the
whole activation with the weights. The ten blocks tile the output array. -/

/-- The body's scaled, biased and clipped block — narrowed to the matrix unit's input format, which changes nothing at
    the extended reals — is the activation of the three loaded blocks. -/
theorem activation_eq (x0 : Vec Ideal S5000x128 .f32) (x1 : Vec Ideal S5000x1 .f32) (x2 : Vec Ideal S1x128 .f32) :
    (truncf .bf16 (maximumf (addf (mulf (shapeCast S5000x128 x0 shapeCasts_S5000x128_S5000x128) (broadcastTo S5000x128 (shapeCast S5000x1 x1 shapeCasts_S5000x1_S5000x1) broadcasts_S5000x1_S5000x128)) (broadcastTo S5000x128 (shapeCast S1x128 x2 shapeCasts_S1x128_S1x128) broadcasts_S1x128_S5000x128)) (broadcast S5000x128 (Scalar.ofBits (F := Ideal) .f32 0x00000000#32))) bitsLt_bf16_f32 : FVec Ideal S5000x128 .bf16) = activated x0 x1 x2 := by
  funext i
  obtain ⟨a, b, rfl⟩ : ∃ (a : Fin 5000) (b : Fin 128), i = ix2 a b := ⟨i 0, i 1, eq_ix2 i⟩
  show max (shapeCast S5000x128 x0 shapeCasts_S5000x128_S5000x128 (ix2 a b)
      * broadcastTo S5000x128 (shapeCast S5000x1 x1 shapeCasts_S5000x1_S5000x1) broadcasts_S5000x1_S5000x128 (ix2 a b)
      + broadcastTo S5000x128 (shapeCast S1x128 x2 shapeCasts_S1x128_S1x128) broadcasts_S1x128_S5000x128 (ix2 a b))
      (Ideal.ofBits .f32 0x00000000#32)
    = max (x0 (ix2 a b) * x1 (ix2 a (0 : Fin 1)) + x2 (ix2 (0 : Fin 1) b)) (Ideal.ofBits .f32 0x00000000#32)
  rw [shapeCast_self, shapeCast_self, shapeCast_self, broadcastTo_a1_ab_apply, broadcastTo_1b_ab_apply]

/-- The body's stored value at an entry: the product of the activated block with the weights there, scaled by the
    block's factor of that row. -/
theorem body_entry (x0 : Vec Ideal S5000x128 .f32) (x1 : Vec Ideal S5000x1 .f32) (x2 : Vec Ideal S1x128 .f32)
    (x3 : Vec Ideal S128x128 .f32) (x4 : Vec Ideal S5000x1 .f32) (p : Fin 5000) (q : Fin 128) :
    k1_pay1 (F := Ideal) x0 x1 x2 x3 x4 (ix2 p q) = mm (activated x0 x1 x2) x3 (ix2 p q) * x4 (ix2 p (0 : Fin 1)) := by
  show (matmul dot_S5000x128_S128x128_S5000x128_1_0_0_1_n_n none (truncf .bf16 (maximumf (addf (mulf (shapeCast S5000x128 x0 shapeCasts_S5000x128_S5000x128) (broadcastTo S5000x128 (shapeCast S5000x1 x1 shapeCasts_S5000x1_S5000x1) broadcasts_S5000x1_S5000x128)) (broadcastTo S5000x128 (shapeCast S1x128 x2 shapeCasts_S1x128_S1x128) broadcasts_S1x128_S5000x128)) (broadcast S5000x128 (Scalar.ofBits (F := Ideal) .f32 0x00000000#32))) bitsLt_bf16_f32 : FVec Ideal S5000x128 .bf16) (truncf .bf16 x3 bitsLt_bf16_f32)
      (constant (F := Ideal) S5000x128 .f32 0x00000000#32) (ix2 p q))
    * (broadcastTo S5000x128 (shapeCast S5000x1 x4 shapeCasts_S5000x1_S5000x1) broadcasts_S5000x1_S5000x128 (ix2 p q)) = _
  rw [activation_eq, shapeCast_self, broadcastTo_a1_ab_apply]
  exact congrArg (· * x4 (ix2 p (0 : Fin 1)))
    (congrFun (matmul_zero_eq_mm dot_S5000x128_S128x128_S5000x128_1_0_0_1_n_n.wf none (activated x0 x1 x2) (truncf .bf16 x3 bitsLt_bf16_f32)) (ix2 p q))

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the output's, the aggregated rows' and the factors' blocks move down with the point,
    the bias row and the weight matrix stay. -/
theorem block_indices : ∀ t : Fin cfg1.N,
    win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- What point `t` writes back is block `t` of that function of the arrays as the region finds them. -/
theorem flushed_eq (c : Dev nD) (t : Fin cfg1.N) :
    (dat1 (F := Ideal) V c).flushed 4 t = ((cfg1.win 4).blk t).view.read (Elt Ideal) (scaledProduct (activated (V c main_v27) (V c main_v28) (V c main_v29)) (V c main_arg4) (V c main_v28)) := by
  show (cfg1.win 4).cut (grid1.coords t) ((dat1 (F := Ideal) V c).after 4 t) = _
  rw [after1_4]
  unfold out1_4
  rw [View.canon_unit_zero zero_offsets]
  simp only [View.ld_unit_zero (S := S5000x128) zero_offsets, View.ld_unit_zero (S := S5000x1) zero_offsets, View.ld_unit_zero (S := S1x128) zero_offsets, View.ld_unit_zero (S := S128x128) zero_offsets]
  have ht : t.val < 10 := Nat.lt_of_lt_of_eq t.isLt N_1
  obtain ⟨e40, e41, e00, e01, e10, e11, e20, e21, e30, e31⟩ := block_indices t
  funext j
  have hp : (j 0).val < 5000 := (j 0).isLt
  have hq : (j 1).val < 128 := (j 1).isLt
  obtain ⟨p, q, hj⟩ : ∃ (p : Fin 5000) (q : Fin 128), j = ix2 p q :=
    ⟨⟨(j 0).val, hp⟩, ⟨(j 1).val, hq⟩, by funext a; match a with | ⟨0, _⟩ => rfl | ⟨1, _⟩ => rfl⟩
  subst hj
  show k1_pay1 (F := Ideal) (iblk1 V c 0 t) (iblk1 V c 1 t) (iblk1 V c 2 t) (iblk1 V c 3 t) (iblk1 V c 1 t) (ix2 p q) = (scaledProduct (activated (V c main_v27) (V c main_v28) (V c main_v29)) (V c main_arg4) (V c main_v28)) (((cfg1.win 4).blk t).view.emb (ix2 p q))
  refine (body_entry (iblk1 V c 0 t) (iblk1 V c 1 t) (iblk1 V c 2 t) (iblk1 V c 3 t) (iblk1 V c 1 t) p q).trans ?_
  have hr : t.val * 5000 + p.val < 50000 := by have := p.isLt; omega
  have hemb : ((cfg1.win 4).blk t).view.emb (ix2 p q) = ix2 (⟨t.val * 5000 + p.val, hr⟩ : Fin 50000) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  rw [hemb]
  have h0 : ∀ k : Fin 128, iblk1 V c 0 t (ix2 p k) = V c main_v27 (ix2 (⟨t.val * 5000 + p.val, hr⟩ : Fin 50000) k) := fun k => by
    show V c main_v27 (((cfg1.win 0).blk t).view.emb (ix2 p k)) = _
    refine congrArg (V c main_v27) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : iblk1 V c 1 t (ix2 p (0 : Fin 1)) = V c main_v28 (ix2 (⟨t.val * 5000 + p.val, hr⟩ : Fin 50000) (0 : Fin 1)) := by
    show V c main_v28 (((cfg1.win 1).blk t).view.emb (ix2 p (0 : Fin 1))) = _
    refine congrArg (V c main_v28) ?_
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  have h2 : ∀ k : Fin 128, iblk1 V c 2 t (ix2 (0 : Fin 1) k) = V c main_v29 (ix2 (0 : Fin 1) k) := fun k => by
    show V c main_v29 (((cfg1.win 2).blk t).view.emb (ix2 (0 : Fin 1) k)) = _
    refine congrArg (V c main_v29) ?_
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have h3 : ∀ k : Fin 128, iblk1 V c 3 t (ix2 k q) = V c main_arg4 (ix2 k q) := fun k => by
    show V c main_arg4 (((cfg1.win 3).blk t).view.emb (ix2 k q)) = _
    refine congrArg (V c main_arg4) ?_
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  exact scaledProduct_row (activated (V c main_v27) (V c main_v28) (V c main_v29)) (V c main_arg4) (V c main_v28)
    (activated (iblk1 V c 0 t) (iblk1 V c 1 t) (iblk1 V c 2 t)) (iblk1 V c 3 t) (iblk1 V c 1 t) p q (⟨t.val * 5000 + p.val, hr⟩ : Fin 50000)
    (fun k => activated_row (V c main_v27) (V c main_v28) (V c main_v29) (iblk1 V c 0 t) (iblk1 V c 1 t) (iblk1 V c 2 t) p (⟨t.val * 5000 + p.val, hr⟩ : Fin 50000) h0 h1 h2 k)
    h3 h1

/-- An index of the output array is in point `t`'s block iff each coordinate is in the block's range on its axis. -/
theorem mem_block (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v30).slice (win1_4.rect t)).set ↔ _
  rw [View.set_slice_whole, Rect.mem_set_unit]
  exact Iff.rfl

/-- The ten blocks tile the output: row `r` is in the block of point `r / 5000`. -/
theorem covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : (i 0).val / 5000 < cfg1.N := by rw [show cfg1.N = 10 from N_1]; omega
  refine ⟨⟨(i 0).val / 5000, hN⟩, flush1_4 _, ?_⟩
  have e0 := (block_indices ⟨(i 0).val / 5000, hN⟩).1
  have e1 := (block_indices ⟨(i 0).val / 5000, hN⟩).2.1
  rw [mem_block]
  intro a
  match a with
  | ⟨0, _⟩ =>
    show win1_4.index ⟨(i 0).val / 5000, hN⟩ (0 : Fin 2) * 5000 ≤ (i 0).val
      ∧ (i 0).val < win1_4.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, hN⟩ (1 : Fin 2) * 128 ≤ (i 1).val
      ∧ (i 1).val < win1_4.index ⟨(i 0).val / 5000, hN⟩ (1 : Fin 2) * 128 + 128
    rw [e1]; omega

/-- THE OUTPUT ARRAY after the region, as one function of the arrays the region entered with. -/
theorem final (c : Dev nD) :
    (dat1 (F := Ideal) V c).arrAt 4 cfg1.N = scaledProduct (activated (V c main_v27) (V c main_v28) (V c main_v29)) (V c main_arg4) (V c main_v28) :=
  (dat1 (F := Ideal) V c).arrAt_eq_of_cover 4 _ (fun t _ => flushed_eq V c t) covered

end Cert.KernelIdeal.Region1

end
-- ==== Proof.Region2.lean ====
import proofs.«110548_j47682726920388_2_alg».proof.Proof.Gen.KernelIdeal.Frame
import proofs.«110548_j47682726920388_2_alg».proof.Proof.LibMatrixProduct
import proofs.«110548_j47682726920388_2_alg».proof.Proof.LibColumnBroadcast
import Idealize.ShloMosaic.Lib.Pipeline.Value
import Idealize.ShloMosaic.Lib.ValueIdx
import Idealize.ShloMosaic.Lib.ValueLayout
import proofs.«110548_j47682726920388_2_alg».proof.Proof.LibLayerForms
set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.MatrixProduct
open Cert.Gcn

/-! # The last pallas_call: scale, bias and clip the aggregated rows, multiply by the two output columns, add their constants

Point `t` of the ten works on rows `5000·t … 5000·t + 4999` of the aggregated features and of the factors; the bias
row, the 128 × 2 matrix of the two heads' weights and the row of their two constants are taken whole. Entry `(p, q)`
of the block it writes is `Σ_k max(a(p, k) · d(p, 0) + b(0, k), 0) · w(k, q) + c(0, q)`: entry `(5000·t + p, q)` of the
biased product of the whole activation with the heads' weights. The ten blocks tile the output array. -/

/-- The body's scaled, biased and clipped block — narrowed to the matrix unit's input format, which changes nothing at
    the extended reals — is the activation of the three loaded blocks. -/
theorem activation_eq (x0 : Vec Ideal S5000x128 .f32) (x1 : Vec Ideal S5000x1 .f32) (x2 : Vec Ideal S1x128 .f32) :
    (truncf .bf16 (maximumf (addf (mulf (shapeCast S5000x128 x0 shapeCasts_S5000x128_S5000x128) (broadcastTo S5000x128 (shapeCast S5000x1 x1 shapeCasts_S5000x1_S5000x1) broadcasts_S5000x1_S5000x128)) (broadcastTo S5000x128 (shapeCast S1x128 x2 shapeCasts_S1x128_S1x128) broadcasts_S1x128_S5000x128)) (broadcast S5000x128 (Scalar.ofBits (F := Ideal) .f32 0x00000000#32))) bitsLt_bf16_f32 : FVec Ideal S5000x128 .bf16) = activated x0 x1 x2 := by
  funext i
  obtain ⟨a, b, rfl⟩ : ∃ (a : Fin 5000) (b : Fin 128), i = ix2 a b := ⟨i 0, i 1, eq_ix2 i⟩
  show max (shapeCast S5000x128 x0 shapeCasts_S5000x128_S5000x128 (ix2 a b)
      * broadcastTo S5000x128 (shapeCast S5000x1 x1 shapeCasts_S5000x1_S5000x1) broadcasts_S5000x1_S5000x128 (ix2 a b)
      + broadcastTo S5000x128 (shapeCast S1x128 x2 shapeCasts_S1x128_S1x128) broadcasts_S1x128_S5000x128 (ix2 a b))
      (Ideal.ofBits .f32 0x00000000#32)
    = max (x0 (ix2 a b) * x1 (ix2 a (0 : Fin 1)) + x2 (ix2 (0 : Fin 1) b)) (Ideal.ofBits .f32 0x00000000#32)
  rw [shapeCast_self, shapeCast_self, shapeCast_self, broadcastTo_a1_ab_apply, broadcastTo_1b_ab_apply]

/-- The body's stored value at an entry: the product of the activated block with the heads' weights there, plus that
    head's constant. -/
theorem body_entry (x0 : Vec Ideal S5000x128 .f32) (x1 : Vec Ideal S5000x1 .f32) (x2 : Vec Ideal S1x128 .f32)
    (x3 : Vec Ideal S128x2 .f32) (x4 : Vec Ideal S1x2 .f32) (p : Fin 5000) (q : Fin 2) :
    k2_pay1 (F := Ideal) x0 x1 x2 x3 x4 (ix2 p q) = mm (activated x0 x1 x2) x3 (ix2 p q) + x4 (ix2 (0 : Fin 1) q) := by
  show (matmul dot_S5000x128_S128x2_S5000x2_1_0_0_1_n_n none (truncf .bf16 (maximumf (addf (mulf (shapeCast S5000x128 x0 shapeCasts_S5000x128_S5000x128) (broadcastTo S5000x128 (shapeCast S5000x1 x1 shapeCasts_S5000x1_S5000x1) broadcasts_S5000x1_S5000x128)) (broadcastTo S5000x128 (shapeCast S1x128 x2 shapeCasts_S1x128_S1x128) broadcasts_S1x128_S5000x128)) (broadcast S5000x128 (Scalar.ofBits (F := Ideal) .f32 0x00000000#32))) bitsLt_bf16_f32 : FVec Ideal S5000x128 .bf16)
      (truncf .bf16 (shapeCast S128x2 x3 shapeCasts_S128x2_S128x2) bitsLt_bf16_f32)
      (constant (F := Ideal) S5000x2 .f32 0x00000000#32) (ix2 p q))
    + (broadcastTo S5000x2 (shapeCast S1x2 x4 shapeCasts_S1x2_S1x2) broadcasts_S1x2_S5000x2 (ix2 p q)) = _
  rw [activation_eq, shapeCast_self, shapeCast_self, broadcastTo_1b_ab_apply]
  exact congrArg (· + x4 (ix2 (0 : Fin 1) q))
    (congrFun (matmul_zero_eq_mm dot_S5000x128_S128x2_S5000x2_1_0_0_1_n_n.wf none (activated x0 x1 x2) (truncf .bf16 x3 bitsLt_bf16_f32)) (ix2 p q))

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the output's, the aggregated rows' and the factors' blocks move down with the point,
    the bias row, the heads' weights and their constants stay. -/
theorem block_indices : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- What point `t` writes back is block `t` of that function of the arrays as the region finds them. -/
theorem flushed_eq (c : Dev nD) (t : Fin cfg2.N) :
    (dat2 (F := Ideal) V c).flushed 5 t = ((cfg2.win 5).blk t).view.read (Elt Ideal) (biasedProduct (activated (V c main_v41) (V c main_v44) (V c main_v45)) (V c main_v42) (V c main_v46)) := by
  show (cfg2.win 5).cut (grid2.coords t) ((dat2 (F := Ideal) V c).after 5 t) = _
  rw [after2_5]
  unfold out2_5
  rw [View.canon_unit_zero zero_offsets]
  simp only [View.ld_unit_zero (S := S5000x128) zero_offsets, View.ld_unit_zero (S := S5000x1) zero_offsets, View.ld_unit_zero (S := S1x128) zero_offsets, View.ld_unit_zero (S := S128x2) zero_offsets, View.ld_unit_zero (S := S1x2) zero_offsets, View.ld_unit_zero (S := S5000x2) zero_offsets]
  have ht : t.val < 10 := Nat.lt_of_lt_of_eq t.isLt N_2
  obtain ⟨e50, e51, e00, e01, e10, e11, e20, e21, e30, e31, e40, e41⟩ := block_indices t
  funext j
  have hp : (j 0).val < 5000 := (j 0).isLt
  have hq : (j 1).val < 2 := (j 1).isLt
  obtain ⟨p, q, hj⟩ : ∃ (p : Fin 5000) (q : Fin 2), j = ix2 p q :=
    ⟨⟨(j 0).val, hp⟩, ⟨(j 1).val, hq⟩, by funext a; match a with | ⟨0, _⟩ => rfl | ⟨1, _⟩ => rfl⟩
  subst hj
  show k2_pay1 (F := Ideal) (iblk2 V c 0 t) (iblk2 V c 1 t) (iblk2 V c 2 t) (iblk2 V c 3 t) (iblk2 V c 4 t) (ix2 p q) = (biasedProduct (activated (V c main_v41) (V c main_v44) (V c main_v45)) (V c main_v42) (V c main_v46)) (((cfg2.win 5).blk t).view.emb (ix2 p q))
  refine (body_entry (iblk2 V c 0 t) (iblk2 V c 1 t) (iblk2 V c 2 t) (iblk2 V c 3 t) (iblk2 V c 4 t) p q).trans ?_
  have hr : t.val * 5000 + p.val < 50000 := by have := p.isLt; omega
  have hemb : ((cfg2.win 5).blk t).view.emb (ix2 p q) = ix2 (⟨t.val * 5000 + p.val, hr⟩ : Fin 50000) q := by
    funext a; apply Fin.ext
    match a with
    | ⟨0, _⟩ => show win2_5.index t (0 : Fin 2) * 5000 + 1 * p.val = t.val * 5000 + p.val; omega
    | ⟨1, _⟩ => show win2_5.index t (1 : Fin 2) * 2 + 1 * q.val = q.val; omega
  rw [hemb]
  have h0 : ∀ k : Fin 128, iblk2 V c 0 t (ix2 p k) = V c main_v41 (ix2 (⟨t.val * 5000 + p.val, hr⟩ : Fin 50000) k) := fun k => by
    show V c main_v41 (((cfg2.win 0).blk t).view.emb (ix2 p k)) = _
    refine congrArg (V c main_v41) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : iblk2 V c 1 t (ix2 p (0 : Fin 1)) = V c main_v44 (ix2 (⟨t.val * 5000 + p.val, hr⟩ : Fin 50000) (0 : Fin 1)) := by
    show V c main_v44 (((cfg2.win 1).blk t).view.emb (ix2 p (0 : Fin 1))) = _
    refine congrArg (V c main_v44) ?_
    funext a; apply Fin.ext
    match a with
    | ⟨0, _⟩ => show win2_1.index t (0 : Fin 2) * 5000 + 1 * p.val = t.val * 5000 + p.val; omega
    | ⟨1, _⟩ => show win2_1.index t (1 : Fin 2) * 1 + 1 * 0 = 0; omega
  have h2 : ∀ k : Fin 128, iblk2 V c 2 t (ix2 (0 : Fin 1) k) = V c main_v45 (ix2 (0 : Fin 1) k) := fun k => by
    show V c main_v45 (((cfg2.win 2).blk t).view.emb (ix2 (0 : Fin 1) k)) = _
    refine congrArg (V c main_v45) ?_
    funext a; apply Fin.ext
    match a with
    | ⟨0, _⟩ => show win2_2.index t (0 : Fin 2) * 1 + 1 * 0 = 0; omega
    | ⟨1, _⟩ => show win2_2.index t (1 : Fin 2) * 128 + 1 * k.val = k.val; omega
  have h3 : ∀ k : Fin 128, iblk2 V c 3 t (ix2 k q) = V c main_v42 (ix2 k q) := fun k => by
    show V c main_v42 (((cfg2.win 3).blk t).view.emb (ix2 k q)) = _
    refine congrArg (V c main_v42) ?_
    funext a; apply Fin.ext
    match a with
    | ⟨0, _⟩ => show win2_3.index t (0 : Fin 2) * 128 + 1 * k.val = k.val; omega
    | ⟨1, _⟩ => show win2_3.index t (1 : Fin 2) * 2 + 1 * q.val = q.val; omega
  have h4 : iblk2 V c 4 t (ix2 (0 : Fin 1) q) = V c main_v46 (ix2 (0 : Fin 1) q) := by
    show V c main_v46 (((cfg2.win 4).blk t).view.emb (ix2 (0 : Fin 1) q)) = _
    refine congrArg (V c main_v46) ?_
    funext a; apply Fin.ext
    match a with
    | ⟨0, _⟩ => show win2_4.index t (0 : Fin 2) * 1 + 1 * 0 = 0; omega
    | ⟨1, _⟩ => show win2_4.index t (1 : Fin 2) * 2 + 1 * q.val = q.val; omega
  exact biasedProduct_row (activated (V c main_v41) (V c main_v44) (V c main_v45)) (V c main_v42) (V c main_v46)
    (activated (iblk2 V c 0 t) (iblk2 V c 1 t) (iblk2 V c 2 t)) (iblk2 V c 3 t) (iblk2 V c 4 t) p q (⟨t.val * 5000 + p.val, hr⟩ : Fin 50000)
    (fun k => activated_row (V c main_v41) (V c main_v44) (V c main_v45) (iblk2 V c 0 t) (iblk2 V c 1 t) (iblk2 V c 2 t) p (⟨t.val * 5000 + p.val, hr⟩ : Fin 50000) h0 h1 h2 k)
    h3 h4

/-- An index of the output array is in point `t`'s block iff each coordinate is in the block's range on its axis. -/
theorem mem_block (t : Fin cfg2.N) (i : S50000x2.Idx) :
    i ∈ ((cfg2.win 5).blk t).view.set ↔ ∀ a : Fin 2, win2_5.index t a * S5000x2.size a ≤ (i a).val
      ∧ (i a).val < win2_5.index t a * S5000x2.size a + S5000x2.size a := by
  show i ∈ ((View.whole main_v47).slice (win2_5.rect t)).set ↔ _
  rw [View.set_slice_whole, Rect.mem_set_unit]
  exact Iff.rfl

/-- The ten blocks tile the output: row `r` is in the block of point `r / 5000`. -/
theorem covered (i : S50000x2.Idx) :
    ∃ t : Fin cfg2.N, (cfg2.win 5).flush t = true ∧ i ∈ ((cfg2.win 5).blk t).view.set := by
  have hi0 : (i 0).val < 50000 := (i 0).isLt
  have hi1 : (i 1).val < 2 := (i 1).isLt
  have hN : (i 0).val / 5000 < cfg2.N := by rw [show cfg2.N = 10 from N_2]; omega
  refine ⟨⟨(i 0).val / 5000, hN⟩, flush2_5 _, ?_⟩
  have e0 := (block_indices ⟨(i 0).val / 5000, hN⟩).1
  have e1 := (block_indices ⟨(i 0).val / 5000, hN⟩).2.1
  rw [mem_block]
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, hN⟩ (1 : Fin 2) * 2 ≤ (i 1).val
      ∧ (i 1).val < win2_5.index ⟨(i 0).val / 5000, hN⟩ (1 : Fin 2) * 2 + 2
    rw [e1]; omega

/-- THE OUTPUT ARRAY after the region, as one function of the arrays the region entered with. -/
theorem final (c : Dev nD) :
    (dat2 (F := Ideal) V c).arrAt 5 cfg2.N = biasedProduct (activated (V c main_v41) (V c main_v44) (V c main_v45)) (V c main_v42) (V c main_v46) :=
  (dat2 (F := Ideal) V c).arrAt_eq_of_cover 5 _ (fun t _ => flushed_eq V c t) covered

end Cert.KernelIdeal.Region2

end
-- ==== Proof.RefValue.lean ====
/-
  What the reference computes, as one nested definition per stage, and its two results read off the run.

  The edge list is a 2 × 800000 array of node numbers; a self-loop per node is appended to each row, giving 850000
  source numbers and 850000 destination numbers. A node's degree is the number of edges whose destination number is
  that node; its factor is the reciprocal square root of the degree where the degree is positive and 0 elsewhere.
  An edge's weight is the product of the factors read at its (wrapped) source and destination numbers. One layer
  multiplies the node features by a weight matrix, gathers the rows at the edges' sources, scales each by the edge's
  weight, adds them up per destination, adds the bias and takes the positive part. The two results are the twice
  convolved features times a one-column matrix each, plus a constant.
-/
import proofs.«110548_j47682726920388_2_alg».proof.Proof.RefFoldRun

set_option maxRecDepth 16384

noncomputable section

namespace Cert.ReferenceIdeal.Spec

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The edges' source numbers followed by every node's own number. -/
def srcIds (e : IVec S2x800000 32) : IVec S850000 32 :=
  concatenate S850000 0 [⟨S800000, shapeCast S800000 (extractStridedSlice S1x800000 ![0, 0] e slices_S2x800000_S1x800000_0_0) shapeCasts_S1x800000_S800000⟩,
    ⟨S50000, iotaInDim S50000 32 0⟩] concatenates_S800000_S50000_S850000_d0

/-- The edges' destination numbers followed by every node's own number. -/
def dstIds (e : IVec S2x800000 32) : IVec S850000 32 :=
  concatenate S850000 0 [⟨S800000, shapeCast S800000 (extractStridedSlice S1x800000 ![1, 0] e slices_S2x800000_S1x800000_1_0) shapeCasts_S1x800000_S800000⟩,
    ⟨S50000, iotaInDim S50000 32 0⟩] concatenates_S800000_S50000_S850000_d0

/-- A negative number counts from the end: 50000 is added to it. -/
def wrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- A list of 850000 entries as one column. -/
def col {α : Type} (v : S850000.Idx → α) : S850000x1.Idx → α := broadcastInDim S850000x1 ![0] bcast_S850000_S850000x1_0 v

/-- A node's degree: one for every edge whose destination number is that node. -/
def degree (e : IVec S2x800000 32) : FVec F S50000 .f32 :=
  Host.scatterAdd scatter_S50000_S850000x1_S850000_n_0_0_1 (broadcastInDim S50000 ![] bcast_S_S50000 (constant S_ .f32 0x00000000#32))
    (col (dstIds e)) (broadcastInDim S850000 ![] bcast_S_S850000 (constant S_ .f32 0x3F800000#32))

/-- A node's factor: the reciprocal square root of its degree where that is positive, zero elsewhere. -/
def factors (e : IVec S2x800000 32) : FVec F S50000 .f32 :=
  select (cmpf .ogt (degree (F := F) e) (broadcastInDim S50000 ![] bcast_S_S50000 (constant S_ .f32 0x00000000#32)))
    (Host.rsqrt (degree (F := F) e)) (broadcastInDim S50000 ![] bcast_S_S50000 (constant S_ .f32 0x00000000#32))

/-- An edge's weight: the factors at its two ends multiplied. -/
def edgeWeights (e : IVec S2x800000 32) : FVec F S850000 .f32 :=
  mulf (Host.gather gather_S50000_S850000x1_S850000_n_0_n_n_0_1_1 (factors (F := F) e) (col (wrap (srcIds e))))
    (Host.gather gather_S50000_S850000x1_S850000_n_0_n_n_0_1_1 (factors (F := F) e) (col (wrap (dstIds e))))

/-- One layer on already multiplied features `P`: gather along the edges, weigh, add up per destination, add the bias,
    take the positive part. -/
def conv (P : FVec F S50000x128 .f32) (e : IVec S2x800000 32) (b : FVec F S128 .f32) : FVec F S50000x128 .f32 :=
  maximumf
    (addf
      (Host.scatterAdd scatter_S50000x128_S850000x1_S850000x128_1_0_0_1
        (broadcastInDim S50000x128 ![] bcast_S_S50000x128 (constant S_ .f32 0x00000000#32)) (col (dstIds e))
        (mulf (Host.gather gather_S50000x128_S850000x1_S850000x128_1_0_n_n_0_1_1128 P (col (wrap (srcIds e))))
          (broadcastInDim S850000x128 ![0, 1] bcast_S850000x1_S850000x128_0_1 (col (edgeWeights (F := F) e)))))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The features after both layers. -/
def hidden (x : FVec F S50000x128 .f32) (e : IVec S2x800000 32) (w1 : FVec F S128x128 .f32) (b1 : FVec F S128 .f32)
    (w2 : FVec F S128x128 .f32) (b2 : FVec F S128 .f32) : FVec F S50000x128 .f32 :=
  conv (Host.dotGeneral dot_S50000x128_S128x128_S50000x128_1_0_0_1_n_n none
    (conv (Host.dotGeneral dot_S50000x128_S128x128_S50000x128_1_0_0_1_n_n none x w1) e b1) w2) e b2

/-- One output head: the hidden features times a one-column matrix, plus a constant. -/
def head (h : FVec F S50000x128 .f32) (w : FVec F S128x1 .f32) (b : FVec F S1 .f32) : FVec F S50000x1 .f32 :=
  addf (Host.dotGeneral dot_S50000x128_S128x1_S50000x1_1_0_0_1_n_n none h w)
    (broadcastInDim S50000x1 ![0, 1] bcast_S1x1_S50000x1_0_1 (broadcastInDim S1x1 ![1] bcast_S1_S1x1_1 b))

/-! ## The stages read at an index

Each is the stage's definition at one index, at every instance of the float operations. -/

theorem zeros_apply (i : S50000x128.Idx) :
    broadcastInDim S50000x128 ![] bcast_S_S50000x128 (constant (F := F) S_ .f32 0x00000000#32) i = FloatOps.ofBits .f32 0x00000000#32 := rfl

theorem factors_apply (e : IVec S2x800000 32) (i : S50000.Idx) :
    factors (F := F) e i = Scalar.select (FloatOps.cmpf .ogt (degree (F := F) e i) (FloatOps.ofBits .f32 0x00000000#32))
      (FloatOps.hostUnary .rsqrt (degree (F := F) e i)) (FloatOps.ofBits .f32 0x00000000#32) := rfl

theorem edgeWeights_apply (e : IVec S2x800000 32) (i : S850000.Idx) :
    edgeWeights (F := F) e i
      = FloatOps.mulf (Host.gather gather_S50000_S850000x1_S850000_n_0_n_n_0_1_1 (factors (F := F) e) (col (wrap (srcIds e))) i)
          (Host.gather gather_S50000_S850000x1_S850000_n_0_n_n_0_1_1 (factors (F := F) e) (col (wrap (dstIds e))) i) := rfl

/-- The updates the reference scatters: the gathered rows, each weighed by its edge's weight. -/
def weighedRows (P : FVec F S50000x128 .f32) (e : IVec S2x800000 32) : FVec F S850000x128 .f32 :=
  mulf (Host.gather gather_S50000x128_S850000x1_S850000x128_1_0_n_n_0_1_1128 P (col (wrap (srcIds e))))
    (broadcastInDim S850000x128 ![0, 1] bcast_S850000x1_S850000x128_0_1 (col (edgeWeights (F := F) e)))

theorem weighedRows_apply (P : FVec F S50000x128 .f32) (e : IVec S2x800000 32) (j : S850000x128.Idx) :
    weighedRows P e j
      = FloatOps.mulf (Host.gather gather_S50000x128_S850000x1_S850000x128_1_0_n_n_0_1_1128 P (col (wrap (srcIds e))) j)
          (broadcastInDim S850000x128 ![0, 1] bcast_S850000x1_S850000x128_0_1
            (broadcastInDim S850000x1 ![0] bcast_S850000_S850000x1_0 (edgeWeights (F := F) e)) j) := rfl

theorem conv_apply (P : FVec F S50000x128 .f32) (e : IVec S2x800000 32) (b : FVec F S128 .f32) (i : S50000x128.Idx) :
    conv P e b i
      = FloatOps.maximumf
          (FloatOps.addf
            (Host.scatterAdd scatter_S50000x128_S850000x1_S850000x128_1_0_0_1
              (broadcastInDim S50000x128 ![] bcast_S_S50000x128 (constant S_ .f32 0x00000000#32)) (col (dstIds e)) (weighedRows P e) i)
            (broadcastInDim S50000x128 ![0, 1] bcast_S1x128_S50000x128_0_1 (broadcastInDim S1x128 ![1] bcast_S128_S1x128_1 b) i))
          (FloatOps.ofBits .f32 0x00000000#32) := rfl

theorem head_apply (h : FVec F S50000x128 .f32) (w : FVec F S128x1 .f32) (b : FVec F S1 .f32) (i : S50000x1.Idx) :
    head h w b i
      = FloatOps.addf (Host.dotGeneral dot_S50000x128_S128x1_S50000x1_1_0_0_1_n_n none h w i)
          (broadcastInDim S50000x1 ![0, 1] bcast_S1x1_S50000x1_0_1 (broadcastInDim S1x1 ![1] bcast_S1_S1x1_1 b) i) := rfl

variable (L : Valuation τ sig (Elt F))

set_option maxHeartbeats 4000000 in
/-- The first result buffer after the operations: the first head of the hidden features. -/
theorem first_result : after (Cert.ReferenceIdeal.FoldRun.ops (F := F)) L (Proc.devRef .tc main_v69)
    = head (hidden (L (Proc.devRef .tc main_arg0)) (L (Proc.devRef .tc main_arg1)) (L (Proc.devRef .tc main_arg2))
        (L (Proc.devRef .tc main_arg3)) (L (Proc.devRef .tc main_arg4)) (L (Proc.devRef .tc main_arg5)))
      (L (Proc.devRef .tc main_arg6)) (L (Proc.devRef .tc main_arg7)) := by
  after_results_simp
  rfl

set_option maxHeartbeats 4000000 in
/-- The second result buffer after the operations: the second head of the same hidden features. -/
theorem second_result : after (Cert.ReferenceIdeal.FoldRun.ops (F := F)) L (Proc.devRef .tc main_v73)
    = head (hidden (L (Proc.devRef .tc main_arg0)) (L (Proc.devRef .tc main_arg1)) (L (Proc.devRef .tc main_arg2))
        (L (Proc.devRef .tc main_arg3)) (L (Proc.devRef .tc main_arg4)) (L (Proc.devRef .tc main_arg5)))
      (L (Proc.devRef .tc main_arg8)) (L (Proc.devRef .tc main_arg9)) := by
  after_results_simp
  rfl

/-! ## No operation writes an argument -/

set_option maxHeartbeats 4000000 in
theorem kept_arg0 : after (Cert.ReferenceIdeal.FoldRun.ops (F := F)) L (Proc.devRef .tc main_arg0) = L (Proc.devRef .tc main_arg0) := by
  after_results_simp
set_option maxHeartbeats 4000000 in
theorem kept_arg1 : after (Cert.ReferenceIdeal.FoldRun.ops (F := F)) L (Proc.devRef .tc main_arg1) = L (Proc.devRef .tc main_arg1) := by
  after_results_simp
set_option maxHeartbeats 4000000 in
theorem kept_arg2 : after (Cert.ReferenceIdeal.FoldRun.ops (F := F)) L (Proc.devRef .tc main_arg2) = L (Proc.devRef .tc main_arg2) := by
  after_results_simp
set_option maxHeartbeats 4000000 in
theorem kept_arg3 : after (Cert.ReferenceIdeal.FoldRun.ops (F := F)) L (Proc.devRef .tc main_arg3) = L (Proc.devRef .tc main_arg3) := by
  after_results_simp
set_option maxHeartbeats 4000000 in
theorem kept_arg4 : after (Cert.ReferenceIdeal.FoldRun.ops (F := F)) L (Proc.devRef .tc main_arg4) = L (Proc.devRef .tc main_arg4) := by
  after_results_simp
set_option maxHeartbeats 4000000 in
theorem kept_arg5 : after (Cert.ReferenceIdeal.FoldRun.ops (F := F)) L (Proc.devRef .tc main_arg5) = L (Proc.devRef .tc main_arg5) := by
  after_results_simp
set_option maxHeartbeats 4000000 in
theorem kept_arg6 : after (Cert.ReferenceIdeal.FoldRun.ops (F := F)) L (Proc.devRef .tc main_arg6) = L (Proc.devRef .tc main_arg6) := by
  after_results_simp
set_option maxHeartbeats 4000000 in
theorem kept_arg7 : after (Cert.ReferenceIdeal.FoldRun.ops (F := F)) L (Proc.devRef .tc main_arg7) = L (Proc.devRef .tc main_arg7) := by
  after_results_simp
set_option maxHeartbeats 4000000 in
theorem kept_arg8 : after (Cert.ReferenceIdeal.FoldRun.ops (F := F)) L (Proc.devRef .tc main_arg8) = L (Proc.devRef .tc main_arg8) := by
  after_results_simp
set_option maxHeartbeats 4000000 in
theorem kept_arg9 : after (Cert.ReferenceIdeal.FoldRun.ops (F := F)) L (Proc.devRef .tc main_arg9) = L (Proc.devRef .tc main_arg9) := by
  after_results_simp

end Cert.ReferenceIdeal.Spec

end
-- ==== Proof.KernelSpec.lean ====
/-
  What the idealized kernel computes, as a chain of whole-array values of the ten arguments.

  The edges' source and destination numbers, the wrap of negative numbers and the nodes' factors are the same host
  operations in both programs, so they are named once (with the reference's stages). The kernel then has three dense
  stages separated by two aggregations:
    stage 0   the features times the first weights, row r scaled by node r's factor;
    aggregate gather the rows of a stage at the edges' (wrapped) sources and add them up per destination;
    stage 1   scale the aggregated rows by the factors, add the first bias, clip at zero, multiply by the second
              weights, scale the rows by the factors again;
    stage 2   the same scaling, bias and clip, then the product with the two heads' weights side by side plus the two
              heads' constants;
  and the two results are the two columns of stage 2.
-/
import proofs.«110548_j47682726920388_2_alg».proof.Proof.RefValue
import proofs.«110548_j47682726920388_2_alg».proof.Proof.Gen.KernelIdeal
import proofs.«110548_j47682726920388_2_alg».proof.Proof.LibLayerForms

set_option maxRecDepth 16384

noncomputable section

namespace Cert.KernelIdeal.Chain

open Cert.KernelIdeal Cert.KernelIdeal.Facts₀ Cert.KernelIdeal.Facts
open Idealize.ShloMosaic Idealize.ShloMosaic.ValueIdx
open Cert.Gcn
open Cert.ReferenceIdeal.Spec (srcIds dstIds wrap col factors)

/-- The nodes' factors as one column. -/
def factorColumn (e : IVec S2x800000 32) : FVec Ideal S50000x1 .f32 :=
  shapeCast S50000x1 (factors (F := Ideal) e) shapeCasts_S50000_S50000x1

/-- A bias vector as one row. -/
def biasRow (b : FVec Ideal S128 .f32) : FVec Ideal S1x128 .f32 := shapeCast S1x128 b shapeCasts_S128_S1x128

/-- Gather the rows of `K` at the edges' wrapped source numbers and add them up per destination number, from zeros. -/
def aggregate (K : FVec Ideal S50000x128 .bf16) (e : IVec S2x800000 32) : FVec Ideal S50000x128 .f32 :=
  Host.scatterAdd scatter_S50000x128_S850000x1_S850000x128_1_0_0_1
    (broadcastInDim S50000x128 ![] bcast_S_S50000x128 (constant S_ .f32 0x00000000#32)) (col (dstIds e))
    (extf .f32 (Host.gather gather_S50000x128_S850000x1_S850000x128_1_0_n_n_0_1_1128 K (col (wrap (srcIds e)))) bitsLt_bf16_f32)

/-- The features times the first weights, each row scaled by its node's factor. -/
def stage0 (x : FVec Ideal S50000x128 .f32) (e : IVec S2x800000 32) (w1 : FVec Ideal S128x128 .f32) : FVec Ideal S50000x128 .bf16 :=
  scaledProduct x w1 (factorColumn e)

/-- The middle layer on the aggregated rows of stage 0. -/
def stage1 (x : FVec Ideal S50000x128 .f32) (e : IVec S2x800000 32) (w1 : FVec Ideal S128x128 .f32) (b1 : FVec Ideal S128 .f32)
    (w2 : FVec Ideal S128x128 .f32) : FVec Ideal S50000x128 .bf16 :=
  scaledProduct (activated (aggregate (stage0 x e w1) e) (factorColumn e) (biasRow b1)) w2 (factorColumn e)

/-- The two heads' weight columns side by side. -/
def headWeights (wt we : FVec Ideal S128x1 .f32) : FVec Ideal S128x2 .f32 :=
  concatenate S128x2 1 [⟨S128x1, wt⟩, ⟨S128x1, we⟩] concatenates_S128x1_S128x1_S128x2_d1

/-- The two heads' constants as one row of two. -/
def headConstants (bt be : FVec Ideal S1 .f32) : FVec Ideal S1x2 .f32 :=
  shapeCast S1x2 (concatenate S2 0 [⟨S1, bt⟩, ⟨S1, be⟩] concatenates_S1_S1_S2_d0) shapeCasts_S2_S1x2

/-- Both heads at once on the aggregated rows of stage 1. -/
def stage2 (x : FVec Ideal S50000x128 .f32) (e : IVec S2x800000 32) (w1 : FVec Ideal S128x128 .f32) (b1 : FVec Ideal S128 .f32)
    (w2 : FVec Ideal S128x128 .f32) (b2 : FVec Ideal S128 .f32) (wt : FVec Ideal S128x1 .f32) (bt : FVec Ideal S1 .f32)
    (we : FVec Ideal S128x1 .f32) (be : FVec Ideal S1 .f32) : FVec Ideal S50000x2 .f32 :=
  biasedProduct (activated (aggregate (stage1 x e w1 b1 w2) e) (factorColumn e) (biasRow b2)) (headWeights wt we) (headConstants bt be)

/-- The first result: the first column of stage 2. -/
def result0 (x : FVec Ideal S50000x128 .f32) (e : IVec S2x800000 32) (w1 : FVec Ideal S128x128 .f32) (b1 : FVec Ideal S128 .f32)
    (w2 : FVec Ideal S128x128 .f32) (b2 : FVec Ideal S128 .f32) (wt : FVec Ideal S128x1 .f32) (bt : FVec Ideal S1 .f32)
    (we : FVec Ideal S128x1 .f32) (be : FVec Ideal S1 .f32) : FVec Ideal S50000x1 .f32 :=
  extractStridedSlice S50000x1 ![0, 0] (stage2 x e w1 b1 w2 b2 wt bt we be) slices_S50000x2_S50000x1_0_0

/-- The second result: the second column of stage 2. -/
def result1 (x : FVec Ideal S50000x128 .f32) (e : IVec S2x800000 32) (w1 : FVec Ideal S128x128 .f32) (b1 : FVec Ideal S128 .f32)
    (w2 : FVec Ideal S128x128 .f32) (b2 : FVec Ideal S128 .f32) (wt : FVec Ideal S128x1 .f32) (bt : FVec Ideal S1 .f32)
    (we : FVec Ideal S128x1 .f32) (be : FVec Ideal S1 .f32) : FVec Ideal S50000x1 .f32 :=
  extractStridedSlice S50000x1 ![0, 1] (stage2 x e w1 b1 w2 b2 wt bt we be) slices_S50000x2_S50000x1_0_1

end Cert.KernelIdeal.Chain

end
-- ==== Proof.KernelChain.lean ====
/-
  The kernel's buffers, boundary by boundary.

  The run leaves every buffer at a fold through @main's nine segments. Reading that fold: after the first three
  stretches of host operations the source and destination numbers, the factors and their column are in place and the
  arguments are as launched; the first region leaves stage 0 in its output array and touches nothing else that is
  read later; the next stretch aggregates stage 0 and lays out the middle layer's operands; and so on to the two
  slices that are the results. A buffer that a segment does not write keeps its contents across it.
-/
import proofs.«110548_j47682726920388_2_alg».proof.Proof.Gen.KernelIdeal.Frame
import proofs.«110548_j47682726920388_2_alg».proof.Proof.Region0
import proofs.«110548_j47682726920388_2_alg».proof.Proof.Region1
import proofs.«110548_j47682726920388_2_alg».proof.Proof.Region2
import proofs.«110548_j47682726920388_2_alg».proof.Proof.KernelSpec
import Idealize.ShloMosaic.Lib.StableHlo.Run

set_option maxRecDepth 16384
set_option maxHeartbeats 4000000

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.Gcn
open Cert.ReferenceIdeal.Spec (srcIds dstIds wrap col factors)

/-! ## At the first region's entry: after the three leading stretches of host operations

These hold at every instance of the float operations: the stretches only move numbers around and apply the
operations' own functions, so they are stated once for all and then read at the exact extended reals. -/

section AnyFloats

variable {F : FTy → Type} [FloatOps F] (m : (ℓ : Loc nD τ sig) → Buf (Elt F) ℓ) (ρ : Dev nD → PrngReg) (c : Dev nD)

theorem entry_v3 : W3 m ρ c (Proc.devRef .tc main_v3) = srcIds (m ((c : Thread nD τ).loc main_arg1)) := by
  show StableHlo.after hostOps0_2 (StableHlo.after hostOps0_1 (StableHlo.after hostOps0 (W0 m ρ c))) (Proc.devRef .tc main_v3) = _
  after_results_simp <;> rfl
theorem entry_v6 : W3 m ρ c (Proc.devRef .tc main_v6) = dstIds (m ((c : Thread nD τ).loc main_arg1)) := by
  show StableHlo.after hostOps0_2 (StableHlo.after hostOps0_1 (StableHlo.after hostOps0 (W0 m ρ c))) (Proc.devRef .tc main_v6) = _
  after_results_simp <;> rfl
theorem entry_v14 : W3 m ρ c (Proc.devRef .tc main_v14) = factors (F := F) (m ((c : Thread nD τ).loc main_arg1)) := by
  show StableHlo.after hostOps0_2 (StableHlo.after hostOps0_1 (StableHlo.after hostOps0 (W0 m ρ c))) (Proc.devRef .tc main_v14) = _
  after_results_simp <;> rfl
theorem entry_v15 : W3 m ρ c (Proc.devRef .tc main_v15) = shapeCast S50000x1 (factors (F := F) (m ((c : Thread nD τ).loc main_arg1))) Cert.KernelIdeal.Facts₀.shapeCasts_S50000_S50000x1 := by
  show StableHlo.after hostOps0_2 (StableHlo.after hostOps0_1 (StableHlo.after hostOps0 (W0 m ρ c))) (Proc.devRef .tc main_v15) = _
  after_results_simp <;> rfl
theorem entry_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem entry_arg1 : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results_simp <;> rfl
theorem entry_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem entry_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem entry_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem entry_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem entry_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem entry_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl
theorem entry_arg8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp <;> rfl
theorem entry_arg9 : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results_simp <;> rfl

end AnyFloats

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

theorem at3_v15 : W3 m ρ c (Proc.devRef .tc main_v15) = factorColumn (arg m c main_arg1) := entry_v15 m ρ c
theorem at3_v3 : W3 m ρ c (Proc.devRef .tc main_v3) = srcIds (arg m c main_arg1) := entry_v3 m ρ c
theorem at3_v6 : W3 m ρ c (Proc.devRef .tc main_v6) = dstIds (arg m c main_arg1) := entry_v6 m ρ c
theorem at3_v14 : W3 m ρ c (Proc.devRef .tc main_v14) = factors (F := Ideal) (arg m c main_arg1) := entry_v14 m ρ c
theorem at3_arg0 : W3 m ρ c (Proc.devRef .tc main_arg0) = arg m c main_arg0 := entry_arg0 m ρ c
theorem at3_arg1 : W3 m ρ c (Proc.devRef .tc main_arg1) = arg m c main_arg1 := entry_arg1 m ρ c
theorem at3_arg2 : W3 m ρ c (Proc.devRef .tc main_arg2) = arg m c main_arg2 := entry_arg2 m ρ c
theorem at3_arg3 : W3 m ρ c (Proc.devRef .tc main_arg3) = arg m c main_arg3 := entry_arg3 m ρ c
theorem at3_arg4 : W3 m ρ c (Proc.devRef .tc main_arg4) = arg m c main_arg4 := entry_arg4 m ρ c
theorem at3_arg5 : W3 m ρ c (Proc.devRef .tc main_arg5) = arg m c main_arg5 := entry_arg5 m ρ c
theorem at3_arg6 : W3 m ρ c (Proc.devRef .tc main_arg6) = arg m c main_arg6 := entry_arg6 m ρ c
theorem at3_arg7 : W3 m ρ c (Proc.devRef .tc main_arg7) = arg m c main_arg7 := entry_arg7 m ρ c
theorem at3_arg8 : W3 m ρ c (Proc.devRef .tc main_arg8) = arg m c main_arg8 := entry_arg8 m ρ c
theorem at3_arg9 : W3 m ρ c (Proc.devRef .tc main_arg9) = arg m c main_arg9 := entry_arg9 m ρ c

/-! ## After the first region -/

/-- The first region's output array holds stage 0. -/
theorem at4_v16 : W4 m ρ c (Proc.devRef .tc main_v16) = stage0 (arg m c main_arg0) (arg m c main_arg1) (arg m c main_arg2) := by
  refine (W4_arr m ρ c 3).trans ((Region0.final (V3 m ρ) c).trans ?_)
  show scaledProduct (W3 m ρ c (Proc.devRef .tc main_arg0)) (W3 m ρ c (Proc.devRef .tc main_arg2)) (W3 m ρ c (Proc.devRef .tc main_v15)) = _
  rw [at3_arg0, at3_arg2, at3_v15]
  rfl
theorem at4_v3 : W4 m ρ c (Proc.devRef .tc main_v3) = srcIds (arg m c main_arg1) :=
  (W4_of_ne m ρ c main_v3 (by decide)).trans (at3_v3 m ρ c)
theorem at4_v6 : W4 m ρ c (Proc.devRef .tc main_v6) = dstIds (arg m c main_arg1) :=
  (W4_of_ne m ρ c main_v6 (by decide)).trans (at3_v6 m ρ c)
theorem at4_v14 : W4 m ρ c (Proc.devRef .tc main_v14) = factors (F := Ideal) (arg m c main_arg1) :=
  (W4_of_ne m ρ c main_v14 (by decide)).trans (at3_v14 m ρ c)
theorem at4_arg3 : W4 m ρ c (Proc.devRef .tc main_arg3) = arg m c main_arg3 :=
  (W4_of_ne m ρ c main_arg3 (by decide)).trans (at3_arg3 m ρ c)
theorem at4_arg4 : W4 m ρ c (Proc.devRef .tc main_arg4) = arg m c main_arg4 :=
  (W4_of_ne m ρ c main_arg4 (by decide)).trans (at3_arg4 m ρ c)
theorem at4_arg5 : W4 m ρ c (Proc.devRef .tc main_arg5) = arg m c main_arg5 :=
  (W4_of_ne m ρ c main_arg5 (by decide)).trans (at3_arg5 m ρ c)
theorem at4_arg6 : W4 m ρ c (Proc.devRef .tc main_arg6) = arg m c main_arg6 :=
  (W4_of_ne m ρ c main_arg6 (by decide)).trans (at3_arg6 m ρ c)
theorem at4_arg7 : W4 m ρ c (Proc.devRef .tc main_arg7) = arg m c main_arg7 :=
  (W4_of_ne m ρ c main_arg7 (by decide)).trans (at3_arg7 m ρ c)
theorem at4_arg8 : W4 m ρ c (Proc.devRef .tc main_arg8) = arg m c main_arg8 :=
  (W4_of_ne m ρ c main_arg8 (by decide)).trans (at3_arg8 m ρ c)
theorem at4_arg9 : W4 m ρ c (Proc.devRef .tc main_arg9) = arg m c main_arg9 :=
  (W4_of_ne m ρ c main_arg9 (by decide)).trans (at3_arg9 m ρ c)

/-! ## At the middle region's entry -/

/-- Stage 0 gathered along the edges and summed per destination. -/
theorem at5_v27 : W5 m ρ c (Proc.devRef .tc main_v27) = aggregate (stage0 (arg m c main_arg0) (arg m c main_arg1) (arg m c main_arg2)) (arg m c main_arg1) := by
  show StableHlo.after hostOps1 (W4 m ρ c) (Proc.devRef .tc main_v27) = _
  after_results_simp
  rw [at4_v6, at4_v16, at4_v3]
  rfl
theorem at5_v28 : W5 m ρ c (Proc.devRef .tc main_v28) = factorColumn (arg m c main_arg1) := by
  show StableHlo.after hostOps1 (W4 m ρ c) (Proc.devRef .tc main_v28) = _
  after_results_simp
  rw [at4_v14]
  rfl
theorem at5_v29 : W5 m ρ c (Proc.devRef .tc main_v29) = biasRow (arg m c main_arg3) := by
  show StableHlo.after hostOps1 (W4 m ρ c) (Proc.devRef .tc main_v29) = _
  after_results_simp
  rw [at4_arg3]
  rfl
theorem at5_v3 : W5 m ρ c (Proc.devRef .tc main_v3) = srcIds (arg m c main_arg1) := by
  show StableHlo.after hostOps1 (W4 m ρ c) (Proc.devRef .tc main_v3) = _
  after_results_simp
  exact at4_v3 m ρ c
theorem at5_v6 : W5 m ρ c (Proc.devRef .tc main_v6) = dstIds (arg m c main_arg1) := by
  show StableHlo.after hostOps1 (W4 m ρ c) (Proc.devRef .tc main_v6) = _
  after_results_simp
  exact at4_v6 m ρ c
theorem at5_v14 : W5 m ρ c (Proc.devRef .tc main_v14) = factors (F := Ideal) (arg m c main_arg1) := by
  show StableHlo.after hostOps1 (W4 m ρ c) (Proc.devRef .tc main_v14) = _
  after_results_simp
  exact at4_v14 m ρ c
theorem at5_arg4 : W5 m ρ c (Proc.devRef .tc main_arg4) = arg m c main_arg4 := by
  show StableHlo.after hostOps1 (W4 m ρ c) (Proc.devRef .tc main_arg4) = _
  after_results_simp
  exact at4_arg4 m ρ c
theorem at5_arg5 : W5 m ρ c (Proc.devRef .tc main_arg5) = arg m c main_arg5 := by
  show StableHlo.after hostOps1 (W4 m ρ c) (Proc.devRef .tc main_arg5) = _
  after_results_simp
  exact at4_arg5 m ρ c
theorem at5_arg6 : W5 m ρ c (Proc.devRef .tc main_arg6) = arg m c main_arg6 := by
  show StableHlo.after hostOps1 (W4 m ρ c) (Proc.devRef .tc main_arg6) = _
  after_results_simp
  exact at4_arg6 m ρ c
theorem at5_arg7 : W5 m ρ c (Proc.devRef .tc main_arg7) = arg m c main_arg7 := by
  show StableHlo.after hostOps1 (W4 m ρ c) (Proc.devRef .tc main_arg7) = _
  after_results_simp
  exact at4_arg7 m ρ c
theorem at5_arg8 : W5 m ρ c (Proc.devRef .tc main_arg8) = arg m c main_arg8 := by
  show StableHlo.after hostOps1 (W4 m ρ c) (Proc.devRef .tc main_arg8) = _
  after_results_simp
  exact at4_arg8 m ρ c
theorem at5_arg9 : W5 m ρ c (Proc.devRef .tc main_arg9) = arg m c main_arg9 := by
  show StableHlo.after hostOps1 (W4 m ρ c) (Proc.devRef .tc main_arg9) = _
  after_results_simp
  exact at4_arg9 m ρ c

/-! ## After the middle region -/

/-- The middle region's output array holds stage 1. -/
theorem at6_v30 : W6 m ρ c (Proc.devRef .tc main_v30) = stage1 (arg m c main_arg0) (arg m c main_arg1) (arg m c main_arg2) (arg m c main_arg3) (arg m c main_arg4) := by
  refine (W6_arr m ρ c 4).trans ((Region1.final (V5 m ρ) c).trans ?_)
  show scaledProduct (activated (W5 m ρ c (Proc.devRef .tc main_v27)) (W5 m ρ c (Proc.devRef .tc main_v28)) (W5 m ρ c (Proc.devRef .tc main_v29)))
    (W5 m ρ c (Proc.devRef .tc main_arg4)) (W5 m ρ c (Proc.devRef .tc main_v28)) = _
  rw [at5_v27, at5_v28, at5_v29, at5_arg4]
  rfl
theorem at6_v3 : W6 m ρ c (Proc.devRef .tc main_v3) = srcIds (arg m c main_arg1) :=
  (W6_of_ne m ρ c main_v3 (by decide)).trans (at5_v3 m ρ c)
theorem at6_v6 : W6 m ρ c (Proc.devRef .tc main_v6) = dstIds (arg m c main_arg1) :=
  (W6_of_ne m ρ c main_v6 (by decide)).trans (at5_v6 m ρ c)
theorem at6_v14 : W6 m ρ c (Proc.devRef .tc main_v14) = factors (F := Ideal) (arg m c main_arg1) :=
  (W6_of_ne m ρ c main_v14 (by decide)).trans (at5_v14 m ρ c)
theorem at6_arg5 : W6 m ρ c (Proc.devRef .tc main_arg5) = arg m c main_arg5 :=
  (W6_of_ne m ρ c main_arg5 (by decide)).trans (at5_arg5 m ρ c)
theorem at6_arg6 : W6 m ρ c (Proc.devRef .tc main_arg6) = arg m c main_arg6 :=
  (W6_of_ne m ρ c main_arg6 (by decide)).trans (at5_arg6 m ρ c)
theorem at6_arg7 : W6 m ρ c (Proc.devRef .tc main_arg7) = arg m c main_arg7 :=
  (W6_of_ne m ρ c main_arg7 (by decide)).trans (at5_arg7 m ρ c)
theorem at6_arg8 : W6 m ρ c (Proc.devRef .tc main_arg8) = arg m c main_arg8 :=
  (W6_of_ne m ρ c main_arg8 (by decide)).trans (at5_arg8 m ρ c)
theorem at6_arg9 : W6 m ρ c (Proc.devRef .tc main_arg9) = arg m c main_arg9 :=
  (W6_of_ne m ρ c main_arg9 (by decide)).trans (at5_arg9 m ρ c)

/-! ## At the last region's entry -/

/-- Stage 1 gathered along the edges and summed per destination. -/
theorem at7_v41 : W7 m ρ c (Proc.devRef .tc main_v41) = aggregate (stage1 (arg m c main_arg0) (arg m c main_arg1) (arg m c main_arg2) (arg m c main_arg3) (arg m c main_arg4)) (arg m c main_arg1) := by
  show StableHlo.after hostOps2 (W6 m ρ c) (Proc.devRef .tc main_v41) = _
  after_results_simp
  rw [at6_v6, at6_v30, at6_v3]
  rfl
theorem at7_v44 : W7 m ρ c (Proc.devRef .tc main_v44) = factorColumn (arg m c main_arg1) := by
  show StableHlo.after hostOps2 (W6 m ρ c) (Proc.devRef .tc main_v44) = _
  after_results_simp
  rw [at6_v14]
  rfl
theorem at7_v45 : W7 m ρ c (Proc.devRef .tc main_v45) = biasRow (arg m c main_arg5) := by
  show StableHlo.after hostOps2 (W6 m ρ c) (Proc.devRef .tc main_v45) = _
  after_results_simp
  rw [at6_arg5]
  rfl
theorem at7_v42 : W7 m ρ c (Proc.devRef .tc main_v42) = headWeights (arg m c main_arg6) (arg m c main_arg8) := by
  show StableHlo.after hostOps2 (W6 m ρ c) (Proc.devRef .tc main_v42) = _
  after_results
  rw [at6_arg6, at6_arg8]
  rfl
theorem at7_v46 : W7 m ρ c (Proc.devRef .tc main_v46) = headConstants (arg m c main_arg7) (arg m c main_arg9) := by
  show StableHlo.after hostOps2 (W6 m ρ c) (Proc.devRef .tc main_v46) = _
  after_results
  rw [at6_arg7, at6_arg9]
  rfl

/-! ## After the last region, and the two results -/

/-- The last region's output array holds stage 2. -/
theorem at8_v47 : W8 m ρ c (Proc.devRef .tc main_v47) = stage2 (arg m c main_arg0) (arg m c main_arg1) (arg m c main_arg2) (arg m c main_arg3) (arg m c main_arg4) (arg m c main_arg5) (arg m c main_arg6) (arg m c main_arg7) (arg m c main_arg8) (arg m c main_arg9) := by
  refine (W8_arr m ρ c 5).trans ((Region2.final (V7 m ρ) c).trans ?_)
  show biasedProduct (activated (W7 m ρ c (Proc.devRef .tc main_v41)) (W7 m ρ c (Proc.devRef .tc main_v44)) (W7 m ρ c (Proc.devRef .tc main_v45)))
    (W7 m ρ c (Proc.devRef .tc main_v42)) (W7 m ρ c (Proc.devRef .tc main_v46)) = _
  rw [at7_v41, at7_v44, at7_v45, at7_v42, at7_v46]
  rfl

/-- THE FIRST RESULT BUFFER at the end of the run. -/
theorem at9_v48 : W9 m ρ c (Proc.devRef .tc main_v48) = result0 (arg m c main_arg0) (arg m c main_arg1) (arg m c main_arg2) (arg m c main_arg3) (arg m c main_arg4) (arg m c main_arg5) (arg m c main_arg6) (arg m c main_arg7) (arg m c main_arg8) (arg m c main_arg9) := by
  show StableHlo.after hostOps3 (W8 m ρ c) (Proc.devRef .tc main_v48) = _
  after_results_simp
  rw [at8_v47]
  rfl

/-- THE SECOND RESULT BUFFER at the end of the run. -/
theorem at9_v49 : W9 m ρ c (Proc.devRef .tc main_v49) = result1 (arg m c main_arg0) (arg m c main_arg1) (arg m c main_arg2) (arg m c main_arg3) (arg m c main_arg4) (arg m c main_arg5) (arg m c main_arg6) (arg m c main_arg7) (arg m c main_arg8) (arg m c main_arg9) := by
  show StableHlo.after hostOps3 (W8 m ρ c) (Proc.devRef .tc main_v49) = _
  after_results_simp
  rw [at8_v47]
  rfl

end Cert.KernelIdeal.Chain

end
-- ==== Proof.LibRowGather.lean ====
/-
  A gather of whole rows, a gather of vector entries, and a scatter of whole rows, each driven by ONE column of
  row numbers, read at an index.

  The start indices are an E × 1 array of integers, one per result row e.
  * Gathering rows of an N × C matrix: result entry (e, l) is the matrix entry (r, l), where r is the integer of
    row e read as a signed number and clamped into [0, N − 1].
  * Gathering entries of a vector of length N: result entry e is the vector's entry r, the same clamped number.
  * Scattering the rows of an E × C array into an N × C matrix: update entry (e, l) lands on entry (r, l) of the
    matrix exactly when the integer of row e, read as a signed number WITHOUT clamping, is a row number r of the
    matrix; otherwise the update is dropped. In particular a landing update has a nonnegative integer, equal to
    the row it lands on, and keeps its column.
-/
import Idealize.ShloMosaic.Lib.ValueIdx
import Idealize.ShloMosaic.PureOps.Ideal

namespace Idealize.ShloMosaic.ValueIdx

open Idealize.ShloMosaic

section
variable {α : Type}

/-- The dimension numbers of a gather of rows: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of vector entries: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of a scatter of rows: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The entry of the one column of row numbers that belongs to result row `e`. -/
abbrev colEntry {E : Nat} (e : Fin E) : (⟨2, ![E, 1]⟩ : Shape).Idx := ix2 e ⟨0, Nat.one_pos⟩

/-- The row a gather reads for result row `e`: the integer, signed, clamped into `[0, N − 1]`. -/
abbrev clampRow {N E w : Nat} (hN : 0 < N) (idx : IVec ⟨2, ![E, 1]⟩ w) (e : Fin E) : Fin N :=
  ⟨min (idx (colEntry e)).toInt.toNat (N - 1), by omega⟩

/-- A GATHER OF ROWS read at `(e, l)`: the operand at the clamped row, same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (l : Fin C) :
    Host.gather (rowGatherDims N E C wf) x idx (ix2 e l) = x (ix2 (clampRow hN idx e) l) := by
  have h0 : (rowGatherDims N E C wf).start (ix2 e l) idx (0 : Fin 2) + (rowGatherDims N E C wf).batchCoord (ix2 e l) (0 : Fin 2)
      + (rowGatherDims N E C wf).offCoord (ix2 e l) (0 : Fin 2) = min (idx (colEntry e)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e l) ⟨List.idxOf (0 : Fin 2) (rowGatherDims N E C wf).startIndexMap,
        List.idxOf_lt_length_iff.2 (List.mem_singleton.mpr rfl)⟩ = colEntry e := by
      funext b; refine Fin.ext ?_
      match b with
      | ⟨0, _⟩ => rfl
      | ⟨1, _⟩ => rfl
    rw [hsi]
    rfl
  have h1 : (rowGatherDims N E C wf).start (ix2 e l) idx (1 : Fin 2) + (rowGatherDims N E C wf).batchCoord (ix2 e l) (1 : Fin 2)
      + (rowGatherDims N E C wf).offCoord (ix2 e l) (1 : Fin 2) = l.val := by
    rw [GatherDims.batchCoord_eq_zero _ _ _ List.not_mem_nil]
    have hs : (rowGatherDims N E C wf).start (ix2 e l) idx (1 : Fin 2) = 0 := by
      unfold GatherDims.start
      rw [dif_neg (show (1 : Fin 2) ∉ ([0] : List (Fin 2)) by decide)]
    rw [hs]
    simp only [Nat.zero_add, Nat.add_zero]
    rfl
  unfold Host.gather
  congr 1
  funext a
  refine Fin.ext ?_
  match a with
  | ⟨0, _⟩ => exact h0
  | ⟨1, _⟩ => exact h1

/-- A GATHER OF VECTOR ENTRIES read at `e`: the operand at the clamped number. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN idx e)) := by
  have h0 : (vecGatherDims N E wf).start (ix1 e) idx (0 : Fin 1) + (vecGatherDims N E wf).batchCoord (ix1 e) (0 : Fin 1)
      + (vecGatherDims N E wf).offCoord (ix1 e) (0 : Fin 1) = min (idx (colEntry e)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = colEntry e := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0

/-- WHERE A SCATTERED ROW LANDS: if update entry `(e, l)` lands on entry `i` of the matrix, then the integer of row
    `e`, read signed, is the row number of `i` (so it is not negative and below `N`), and `i` is in column `l`. -/
theorem scatter_rows_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (l : Fin C) (i : (⟨2, ![N, C]⟩ : Shape).Idx)
    (h : (rowScatterDims N E C wf).resultIdx? (ix2 e l) idx = some i) :
    (idx (colEntry e)).toInt = ((i 0).val : Int) ∧ (i 1).val = l.val := by
  have hs0 : (rowScatterDims N E C wf).start (ix2 e l) idx (0 : Fin 2) = (idx (colEntry e)).toInt := by
    unfold ScatterDims.start
    rw [dif_pos (show (0 : Fin 2) ∈ (rowScatterDims N E C wf).scatterDimsToOperandDims from List.mem_singleton.mpr rfl)]
    have hsi : (rowScatterDims N E C wf).siIdx (ix2 e l) ⟨List.idxOf (0 : Fin 2) (rowScatterDims N E C wf).scatterDimsToOperandDims,
        List.idxOf_lt_length_iff.2 (List.mem_singleton.mpr rfl)⟩ = colEntry e := by
      funext b; refine Fin.ext ?_
      match b with
      | ⟨0, _⟩ => rfl
      | ⟨1, _⟩ => rfl
    rw [hsi]
  have hw0 : (rowScatterDims N E C wf).window (ix2 e l) (0 : Fin 2) = 0 := by
    unfold ScatterDims.window
    rw [dif_neg (show (0 : Fin 2) ∉ (rowScatterDims N E C wf).sKept from (by decide : (0 : Fin 2) ∉ (List.finRange 2).filter (· ∉ ([0] : List (Fin 2)))))]
  have hs1 : (rowScatterDims N E C wf).start (ix2 e l) idx (1 : Fin 2) = 0 := by
    unfold ScatterDims.start
    rw [dif_neg (show (1 : Fin 2) ∉ ([0] : List (Fin 2)) by decide)]
  have hw1 : (rowScatterDims N E C wf).window (ix2 e l) (1 : Fin 2) = l.val := by
    unfold ScatterDims.window
    rw [dif_pos (show (1 : Fin 2) ∈ (rowScatterDims N E C wf).sKept from (by decide : (1 : Fin 2) ∈ (List.finRange 2).filter (· ∉ ([0] : List (Fin 2)))))]
    rfl
  unfold ScatterDims.resultIdx? at h
  split at h
  · rename_i hin
    have hi := Option.some.inj h
    have h0 := hin (0 : Fin 2)
    rw [hs0, hw0] at h0
    have e0 : (i 0).val = ((rowScatterDims N E C wf).start (ix2 e l) idx (0 : Fin 2) + ((rowScatterDims N E C wf).window (ix2 e l) (0 : Fin 2) : Int)).toNat := by
      rw [← hi]
    have e1 : (i 1).val = ((rowScatterDims N E C wf).start (ix2 e l) idx (1 : Fin 2) + ((rowScatterDims N E C wf).window (ix2 e l) (1 : Fin 2) : Int)).toNat := by
      rw [← hi]
    rw [hs0, hw0] at e0
    rw [hs1, hw1] at e1
    constructor
    · omega
    · omega
  · exact absurd h (by simp)

end

end Idealize.ShloMosaic.ValueIdx
-- ==== Proof.LibScaleSum.lean ====
/-
  Two facts about the extended reals.

  * Multiplying a finite sum by a factor d with 0 ≤ d < ⊤ can be done term by term: (Σ f) · d = Σ (f · d). On the
    extended reals multiplication does not distribute over addition in general (⊤ + ⊥ = ⊥, and a negative factor
    swaps the two infinities), but it does for a nonnegative finite factor, and a finite sum follows by induction.
  * The reciprocal square root, applied to max x r with r a positive real, is a nonnegative finite number: the
    argument is either ⊤, where the reciprocal square root is 0, or a positive real, where it is a positive real.
-/
import Idealize.ShloMosaic.PureOps.Ideal
import Mathlib.Data.EReal.Operations

open scoped BigOperators

namespace Idealize.ShloMosaic.Ideal

/-- A factor `d` with `0 ≤ d` and `d ≠ ⊤` distributes over a finite sum of extended reals. -/
theorem sum_mul_of_nonneg_of_ne_top {ι : Type*} (s : Finset ι) (f : ι → EReal) {d : EReal} (h0 : 0 ≤ d) (ht : d ≠ ⊤) :
    (∑ j ∈ s, f j) * d = ∑ j ∈ s, f j * d := by
  classical
  induction s using Finset.induction_on with
  | empty => simp
  | insert a s ha ih =>
    rw [Finset.sum_insert ha, Finset.sum_insert ha, EReal.right_distrib_of_nonneg_of_ne_top h0 ht, ih]

/-- `rsqrt (max x r)` for a positive real `r` is nonnegative and finite. -/
theorem rsqrt_max_pos_range (x : EReal) {r : ℝ} (hr : 0 < r) :
    0 ≤ Ideal.rsqrt (max x (r : EReal)) ∧ Ideal.rsqrt (max x (r : EReal)) ≠ ⊤ := by
  have hle : (r : EReal) ≤ max x (r : EReal) := le_max_right _ _
  induction h : max x (r : EReal) using EReal.rec with
  | bot => rw [h] at hle; exact absurd hle (by simp)
  | top => rw [Ideal.rsqrt_top]; exact ⟨le_refl _, EReal.zero_ne_top⟩
  | coe y =>
    rw [h] at hle
    have hy : 0 < y := lt_of_lt_of_le hr (by exact_mod_cast hle)
    have hs : 0 < Real.sqrt y := Real.sqrt_pos.mpr hy
    rw [Ideal.rsqrt_coe, if_neg (not_lt.mpr hy.le), if_neg hy.ne']
    exact ⟨by exact_mod_cast (inv_pos.mpr hs).le, EReal.coe_ne_top _⟩

end Idealize.ShloMosaic.Ideal
-- ==== Proof.LibScaledScatter.lean ====
/-
  A degree-normalised aggregation can be scaled before and after the sum, or once per edge.

  Rows of an N × C matrix h are gathered along a list of E edges (source row of edge e: the clamped integer
  row(e)) and added up per destination row (edge e lands on row col(e) when that integer is a row number, and is
  dropped otherwise). Let dis be a vector of N factors, each nonnegative and finite. Then, entry by entry,

      ( Σ_{e lands on i}  h(src e, l) · dis(src e) ) · dis(i)
        =  Σ_{e lands on i}  h(src e, l) · ( dis(src e) · dis(dst e) ),

  where dst e is the clamped integer of the destination column after negative numbers have been wrapped: an edge
  that lands on row i has the nonnegative integer i there, which neither the wrap nor the clamp changes, so
  dis(dst e) = dis(i). The factor dis(i) moves inside the sum because it is nonnegative and finite (the one case
  in which multiplication distributes over addition on the extended reals), and the product is associative.
  Nothing is assumed of h: its entries may be infinite.
-/
import proofs.«110548_j47682726920388_2_alg».proof.Proof.LibRowGather
import proofs.«110548_j47682726920388_2_alg».proof.Proof.LibScaleSum

open scoped BigOperators

namespace Idealize.ShloMosaic.ValueIdx

open Idealize.ShloMosaic

/-- THE SCALED AGGREGATION: the scatter-add of updates `h(src e, l) · dis(src e)`, scaled afterwards by `dis(i)`, is
    the scatter-add of updates `h(src e, l) · (dis(src e) · dis(dst e))`, into an operand of zeros. -/
theorem scaled_scatter_rows {N E C : Nat} (hN : 0 < N)
    (ws : ScatterDims.WF ⟨2, ![N, C]⟩ ⟨2, ![E, 1]⟩ ⟨2, ![E, C]⟩ [1] [0] [0] 1)
    (h : (⟨2, ![N, C]⟩ : Shape).Idx → EReal) (dis : (⟨1, ![N]⟩ : Shape).Idx → EReal)
    (hdis : ∀ r : Fin N, 0 ≤ dis (ix1 r) ∧ dis (ix1 r) ≠ ⊤)
    (irow icol icolw : IVec ⟨2, ![E, 1]⟩ 32)
    (hwrap : ∀ e : Fin E, 0 ≤ (icol (colEntry e)).toInt → icolw (colEntry e) = icol (colEntry e))
    (z : (⟨2, ![N, C]⟩ : Shape).Idx → EReal) (hz : ∀ i, z i = 0)
    (updK updR : (⟨2, ![E, C]⟩ : Shape).Idx → EReal)
    (hK : ∀ (e : Fin E) (l : Fin C), updK (ix2 e l) = h (ix2 (clampRow hN irow e) l) * dis (ix1 (clampRow hN irow e)))
    (hR : ∀ (e : Fin E) (l : Fin C), updR (ix2 e l)
      = h (ix2 (clampRow hN irow e) l) * (dis (ix1 (clampRow hN irow e)) * dis (ix1 (clampRow hN icolw e))))
    (i : Fin N) (l : Fin C) :
    Ideal.hostScatterAdd (rowScatterDims N E C ws) z icol updK (ix2 i l) * dis (ix1 i)
      = Ideal.hostScatterAdd (rowScatterDims N E C ws) z icol updR (ix2 i l) := by
  unfold Ideal.hostScatterAdd
  rw [hz, zero_add, zero_add, Ideal.sum_mul_of_nonneg_of_ne_top _ _ (hdis i).1 (hdis i).2]
  refine Finset.sum_congr rfl fun j hj => ?_
  obtain ⟨e, l', rfl⟩ : ∃ (e : Fin E) (l' : Fin C), j = ix2 e l' := ⟨j 0, j 1, eq_ix2 j⟩
  obtain ⟨hint, -⟩ := scatter_rows_lands ws icol e l' (ix2 i l) (Finset.mem_filter.mp hj).2
  have hi : ((ix2 i l : (⟨2, ![N, C]⟩ : Shape).Idx) 0).val = i.val := rfl
  rw [hi] at hint
  have hdst : clampRow hN icolw e = i := by
    refine Fin.ext ?_
    show min (icolw (colEntry e)).toInt.toNat (N - 1) = i.val
    rw [hwrap e (by omega), hint]
    have := i.isLt
    simp only [Int.toNat_natCast]
    omega
  rw [hK, hR, hdst, mul_assoc]

end Idealize.ShloMosaic.ValueIdx
-- ==== Proof.LibBiasRows.lean ====
/-
  A vector repeated down the rows, or across the columns, of a matrix, the way the host writes it.

  A vector b of length n is first made a 1 × n row (broadcast along a new leading axis) and the row is then repeated
  M times (broadcast along that axis). Entry (r, a) of the result is b(a), whatever the row r. Likewise a vector
  v of length E made an E × 1 column and repeated across C columns has v(e) at entry (e, l).
-/
import Idealize.ShloMosaic.Lib.Pipeline.Value
import Idealize.ShloMosaic.Lib.ValueIdx

namespace Idealize.ShloMosaic.ValueIdx

open Idealize.ShloMosaic

variable {α : Type}

/-- A length-`n` vector broadcast to `[1, n]` and then to `[M, n]` reads, at `(r, a)`, the vector at `a`. -/
theorem bias_rows_apply {M n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2))
    (r : Fin M) (a : Fin n) :
    broadcastInDim ⟨2, ![M, n]⟩ (![0, 1] : Fin 2 → Fin 2) h2 (broadcastInDim ⟨2, ![1, n]⟩ (![1] : Fin 1 → Fin 2) h1 b) (ix2 r a)
      = b (ix1 a) := by
  refine (broadcastInDim_apply _ h2 _ (ix2 r a) (ix2 (0 : Fin 1) a) (fun ax => ?_)).trans
    (broadcastInDim_apply _ h1 b (ix2 (0 : Fin 1) a) (ix1 a) (fun ax => ?_))
  · match ax with
    | ⟨0, _⟩ => show 0 = if (1 : ℕ) = 1 then 0 else r.val; rw [if_pos rfl]
    | ⟨1, _⟩ =>
      show a.val = if n = 1 then 0 else a.val
      split
      · have := a.isLt; omega
      · rfl
  · match ax with
    | ⟨0, _⟩ =>
      show a.val = if n = 1 then 0 else a.val
      split
      · have := a.isLt; omega
      · rfl

/-- A length-`E` vector broadcast to one column `[E, 1]` and then across `C` columns reads, at `(e, l)`, the vector
    at `e`: one factor per row, repeated along the row. -/
theorem row_factors_apply {E C : ℕ} (v : (⟨1, ![E]⟩ : Shape).Idx → α)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2))
    (e : Fin E) (l : Fin C) :
    broadcastInDim ⟨2, ![E, C]⟩ (![0, 1] : Fin 2 → Fin 2) h2 (broadcastInDim ⟨2, ![E, 1]⟩ (![0] : Fin 1 → Fin 2) h1 v) (ix2 e l)
      = v (ix1 e) := by
  refine (broadcastInDim_apply _ h2 _ (ix2 e l) (ix2 e (0 : Fin 1)) (fun ax => ?_)).trans
    (broadcastInDim_apply _ h1 v (ix2 e (0 : Fin 1)) (ix1 e) (fun ax => ?_))
  · match ax with
    | ⟨0, _⟩ =>
      show e.val = if E = 1 then 0 else e.val
      split
      · have := e.isLt; omega
      · rfl
    | ⟨1, _⟩ => show 0 = if (1 : ℕ) = 1 then 0 else l.val; rw [if_pos rfl]
  · match ax with
    | ⟨0, _⟩ =>
      show e.val = if E = 1 then 0 else e.val
      split
      · have := e.isLt; omega
      · rfl

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibConcatRead.lean ====
/-
  A concatenation read at an index given by coordinates.
  For two matrices joined side by side (along the columns) or one above the other (along the rows), for two vectors
  joined end to end, and for three matrices joined side by side: an index whose joined coordinate falls in a piece reads
  that piece at the same coordinates, the joined coordinate less the extents of the pieces before it.
-/
import Idealize.ShloMosaic.Lib.Pipeline.Value
import Idealize.ShloMosaic.Lib.ValueIdx

namespace Idealize.ShloMosaic.ValueIdx

open Idealize.ShloMosaic

variable {α : Type}

/-- Two matrices side by side, read in the LEFT one: column `q' = q`. -/
theorem concat_cols_left {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n1) (q' : Fin n)
    (hq : q'.val = q.val) :
    concatenate ⟨2, ![a, n]⟩ 1 [⟨⟨2, ![a, n1]⟩, X⟩, ⟨⟨2, ![a, n2]⟩, Y⟩] h (ix2 p q') = X (ix2 p q) :=
  concatenate_pair_apply_left 1 X Y h (ix2 p q') rfl (ix2 p q) (fun b => by
    match b with
    | ⟨0, _⟩ => rfl
    | ⟨1, _⟩ => exact hq.symm)

/-- Two matrices side by side, read in the RIGHT one: column `q' = n1 + q`. -/
theorem concat_cols_right {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n2) (q' : Fin n)
    (hq : q'.val = n1 + q.val) :
    concatenate ⟨2, ![a, n]⟩ 1 [⟨⟨2, ![a, n1]⟩, X⟩, ⟨⟨2, ![a, n2]⟩, Y⟩] h (ix2 p q') = Y (ix2 p q) :=
  concatenate_pair_apply_right 1 X Y h (ix2 p q') rfl rfl (ix2 p q) (fun b hb => by
    match b, hb with
    | ⟨0, _⟩, _ => rfl
    | ⟨1, _⟩, hb => exact absurd rfl hb) (by show q.val + n1 = q'.val; omega)

/-- Two matrices one above the other, read in the TOP one: row `p' = p`. -/
theorem concat_rows_top {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a1) (p' : Fin a) (q : Fin n)
    (hp : p'.val = p.val) :
    concatenate ⟨2, ![a, n]⟩ 0 [⟨⟨2, ![a1, n]⟩, X⟩, ⟨⟨2, ![a2, n]⟩, Y⟩] h (ix2 p' q) = X (ix2 p q) :=
  concatenate_pair_apply_left 0 X Y h (ix2 p' q) rfl (ix2 p q) (fun b => by
    match b with
    | ⟨0, _⟩ => exact hp.symm
    | ⟨1, _⟩ => rfl)

/-- Two matrices one above the other, read in the BOTTOM one: row `p' = a1 + p`. -/
theorem concat_rows_bottom {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a2) (p' : Fin a) (q : Fin n)
    (hp : p'.val = a1 + p.val) :
    concatenate ⟨2, ![a, n]⟩ 0 [⟨⟨2, ![a1, n]⟩, X⟩, ⟨⟨2, ![a2, n]⟩, Y⟩] h (ix2 p' q) = Y (ix2 p q) :=
  concatenate_pair_apply_right 0 X Y h (ix2 p' q) rfl rfl (ix2 p q) (fun b hb => by
    match b, hb with
    | ⟨0, _⟩, hb => exact absurd rfl hb
    | ⟨1, _⟩, _ => rfl) (by show p.val + a1 = p'.val; omega)

/-- Two vectors end to end, read in the FIRST: position `q' = q`. -/
theorem concat_vec_first {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n1) (q' : Fin n) (hq : q'.val = q.val) :
    concatenate ⟨1, ![n]⟩ 0 [⟨⟨1, ![n1]⟩, x⟩, ⟨⟨1, ![n2]⟩, y⟩] h (ix1 q') = x (ix1 q) :=
  concatenate_pair_apply_left 0 x y h (ix1 q') rfl (ix1 q) (fun b => by
    match b with
    | ⟨0, _⟩ => exact hq.symm)

/-- Two vectors end to end, read in the SECOND: position `q' = n1 + q`. -/
theorem concat_vec_second {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n2) (q' : Fin n) (hq : q'.val = n1 + q.val) :
    concatenate ⟨1, ![n]⟩ 0 [⟨⟨1, ![n1]⟩, x⟩, ⟨⟨1, ![n2]⟩, y⟩] h (ix1 q') = y (ix1 q) :=
  concatenate_pair_apply_right 0 x y h (ix1 q') rfl rfl (ix1 q) (fun b hb => by
    match b, hb with
    | ⟨0, _⟩, hb => exact absurd rfl hb) (by show q.val + n1 = q'.val; omega)

/-- Three matrices side by side, read in the FIRST: column `q' = q`. -/
theorem concat3_cols_first {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n0) (q' : Fin n)
    (hq : q'.val = q.val) :
    concatenate ⟨2, ![a, n]⟩ 1 [⟨⟨2, ![a, n0]⟩, X0⟩, ⟨⟨2, ![a, n1]⟩, X1⟩, ⟨⟨2, ![a, n2]⟩, X2⟩] h (ix2 p q') = X0 (ix2 p q) :=
  concatenate_apply_piece 1 [⟨⟨2, ![a, n0]⟩, X0⟩, ⟨⟨2, ![a, n1]⟩, X1⟩, ⟨⟨2, ![a, n2]⟩, X2⟩] h (ix2 p q') 0 (by simp) _ X0 rfl rfl
    0 rfl (ix2 p q) (fun b hb => by
      match b, hb with
      | ⟨0, _⟩, _ => rfl
      | ⟨1, _⟩, hb => exact absurd rfl hb) (by show 0 + q.val = q'.val; omega)

/-- Three matrices side by side, read in the SECOND: column `q' = n0 + q`. -/
theorem concat3_cols_second {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n1) (q' : Fin n)
    (hq : q'.val = n0 + q.val) :
    concatenate ⟨2, ![a, n]⟩ 1 [⟨⟨2, ![a, n0]⟩, X0⟩, ⟨⟨2, ![a, n1]⟩, X1⟩, ⟨⟨2, ![a, n2]⟩, X2⟩] h (ix2 p q') = X1 (ix2 p q) :=
  concatenate_apply_piece 1 [⟨⟨2, ![a, n0]⟩, X0⟩, ⟨⟨2, ![a, n1]⟩, X1⟩, ⟨⟨2, ![a, n2]⟩, X2⟩] h (ix2 p q') 1 (by simp) _ X1 rfl rfl
    n0 (by simp) (ix2 p q) (fun b hb => by
      match b, hb with
      | ⟨0, _⟩, _ => rfl
      | ⟨1, _⟩, hb => exact absurd rfl hb) (by show n0 + q.val = q'.val; omega)

/-- Three matrices side by side, read in the THIRD: column `q' = n0 + n1 + q`. -/
theorem concat3_cols_third {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n2) (q' : Fin n)
    (hq : q'.val = n0 + n1 + q.val) :
    concatenate ⟨2, ![a, n]⟩ 1 [⟨⟨2, ![a, n0]⟩, X0⟩, ⟨⟨2, ![a, n1]⟩, X1⟩, ⟨⟨2, ![a, n2]⟩, X2⟩] h (ix2 p q') = X2 (ix2 p q) :=
  concatenate_apply_piece 1 [⟨⟨2, ![a, n0]⟩, X0⟩, ⟨⟨2, ![a, n1]⟩, X1⟩, ⟨⟨2, ![a, n2]⟩, X2⟩] h (ix2 p q') 2 (by simp) _ X2 rfl rfl
    (n0 + n1) (by simp) (ix2 p q) (fun b hb => by
      match b, hb with
      | ⟨0, _⟩, _ => rfl
      | ⟨1, _⟩, hb => exact absurd rfl hb) (by show n0 + n1 + q.val = q'.val; omega)

end Idealize.ShloMosaic.ValueIdx
-- ==== Proof.LibGuardedRsqrt.lean ====
/-
  The normalising factor of a node is the reciprocal square root of its degree where the degree is positive, and zero
  elsewhere. Whatever extended real the "degree" is, that factor is a nonnegative finite number: a positive real has
  a positive real reciprocal square root, the reciprocal square root of +∞ is 0, and anything not above zero is sent
  to 0 by the guard. This is the one property of the factors that the aggregation law uses.
-/
import Idealize.ShloMosaic.PureOps.Ideal
import Mathlib.Data.EReal.Operations

namespace Cert.Gcn

open Idealize.ShloMosaic

/-- `if 0 < x then rsqrt x else 0`, spelt with the comparison bit and the select of the two programs, lies in `[0, ⊤)`. -/
theorem guarded_rsqrt_range (x : EReal) :
    0 ≤ Scalar.select (Ideal.cmp .ogt x 0) (Ideal.rsqrt x) (0 : EReal)
      ∧ Scalar.select (Ideal.cmp .ogt x 0) (Ideal.rsqrt x) (0 : EReal) ≠ ⊤ := by
  unfold Scalar.select Ideal.cmp
  induction x using EReal.rec with
  | bot => simp
  | top => simp
  | coe r =>
    by_cases h : (0 : ℝ) < r
    · have hs : 0 < Real.sqrt r := Real.sqrt_pos.mpr h
      have h' : ((0 : ℝ) : EReal) < (r : EReal) := by exact_mod_cast h
      simp only [EReal.coe_zero] at h'
      simp only [h', decide_true, BitVec.ofBool_true, if_true, Ideal.rsqrt_coe, if_neg (not_lt.mpr h.le), if_neg h.ne']
      exact ⟨by exact_mod_cast (inv_pos.mpr hs).le, EReal.coe_ne_top _⟩
    · have h' : ¬ ((0 : EReal) < (r : EReal)) := by
        intro hh; exact h (by exact_mod_cast hh)
      simp [h']

end Cert.Gcn
-- ==== Proof.Bridge.lean ====
/-
  The kernel's chain of values and the reference's stages are one function of the ten arguments.

  One layer. Write f for the nodes' factors, P for an N × C matrix, and for an edge e write s(e) for the row its
  wrapped source number reads and d(e) for the row its wrapped destination number reads. The kernel scales row r of
  P by f(r), gathers and sums per destination, and scales the sum at node i by f(i) again:
      ( Σ_{e lands on i}  P(s(e), l) · f(s(e)) ) · f(i).
  The reference weighs each gathered row by f(s(e)) · f(d(e)) before summing:
      Σ_{e lands on i}  P(s(e), l) · ( f(s(e)) · f(d(e)) ).
  An edge lands on node i exactly when its destination number is the nonnegative number i, which the wrap leaves
  alone, so f(d(e)) = f(i) for every term of the sum; and f(i) is nonnegative and finite, which is the case in which
  a factor moves inside a sum of extended reals. Adding the bias and taking the positive part is the same on both
  sides. Nothing is assumed of P: the law needs no finiteness of the inputs.

  Both layers are instances of that; the heads are a product with two columns side by side against two products
  with one column each, an entry of a product depending on one column of the right factor only.
-/
import proofs.«110548_j47682726920388_2_alg».proof.Proof.KernelSpec
import proofs.«110548_j47682726920388_2_alg».proof.Proof.LibScaledScatter
import proofs.«110548_j47682726920388_2_alg».proof.Proof.LibBiasRows
import proofs.«110548_j47682726920388_2_alg».proof.Proof.LibColumnCast
import proofs.«110548_j47682726920388_2_alg».proof.Proof.LibConcatRead
import proofs.«110548_j47682726920388_2_alg».proof.Proof.LibGuardedRsqrt
import Idealize.ShloMosaic.Lib.ValueLayout
import Idealize.ShloMosaic.Lib.Pipeline.Value
import Idealize.ShloMosaic.PureOps.Ideal.Laws

set_option maxRecDepth 16384

noncomputable section

namespace Cert.Gcn.Bridge

open Idealize.ShloMosaic Idealize.ShloMosaic.ValueIdx
open Cert.MatrixProduct Cert.Gcn
open Cert.KernelIdeal.Chain (factorColumn biasRow aggregate stage0 stage1 stage2 result0 result1 headWeights headConstants)
open Cert.ReferenceIdeal.Spec (srcIds dstIds wrap col degree factors edgeWeights weighedRows conv hidden head)

/-- The edge list's type: a 2 × 800000 array of 32-bit numbers. -/
abbrev Edges := IVec (⟨2, ![2, 800000]⟩ : Shape) 32

/-! ## The two programs' scatter and gather records are the row forms -/

theorem ref_scatter_eq (x : (⟨2, ![50000, 128]⟩ : Shape).Idx → EReal) (i : IVec (⟨2, ![850000, 1]⟩ : Shape) 32)
    (u : (⟨2, ![850000, 128]⟩ : Shape).Idx → EReal) :
    Host.scatterAdd (F := Ideal) (φ := .f32) Cert.ReferenceIdeal.scatter_S50000x128_S850000x1_S850000x128_1_0_0_1 x i u
      = Ideal.hostScatterAdd (rowScatterDims 50000 850000 128 Cert.ReferenceIdeal.Facts₀.scatter_S50000x128_S850000x1_S850000x128_1_0_0_1_wf) x i u := rfl

theorem ref_gather_rows_eq {α : Type} (x : (⟨2, ![50000, 128]⟩ : Shape).Idx → α) (i : IVec (⟨2, ![850000, 1]⟩ : Shape) 32) :
    Host.gather Cert.ReferenceIdeal.gather_S50000x128_S850000x1_S850000x128_1_0_n_n_0_1_1128 x i
      = Host.gather (rowGatherDims 50000 850000 128 Cert.ReferenceIdeal.Facts₀.gather_S50000x128_S850000x1_S850000x128_1_0_n_n_0_1_1128_wf) x i := rfl

theorem ref_gather_vec_eq {α : Type} (x : (⟨1, ![50000]⟩ : Shape).Idx → α) (i : IVec (⟨2, ![850000, 1]⟩ : Shape) 32) :
    Host.gather Cert.ReferenceIdeal.gather_S50000_S850000x1_S850000_n_0_n_n_0_1_1 x i
      = Host.gather (vecGatherDims 50000 850000 Cert.ReferenceIdeal.Facts₀.gather_S50000_S850000x1_S850000_n_0_n_n_0_1_1_wf) x i := rfl

/-- The kernel's aggregation is the row-scatter sum of the row-gathered operand, from zeros. -/
theorem aggregate_eq (K : (⟨2, ![50000, 128]⟩ : Shape).Idx → EReal) (e : Edges) :
    aggregate K e = Ideal.hostScatterAdd (rowScatterDims 50000 850000 128 Cert.ReferenceIdeal.Facts₀.scatter_S50000x128_S850000x1_S850000x128_1_0_0_1_wf) (broadcastInDim Cert.ReferenceIdeal.S50000x128 ![] Cert.ReferenceIdeal.Facts₀.bcast_S_S50000x128 (constant (F := Ideal) Cert.ReferenceIdeal.S_ .f32 0x00000000#32)) (col (dstIds e))
      (Host.gather (rowGatherDims 50000 850000 128 Cert.ReferenceIdeal.Facts₀.gather_S50000x128_S850000x1_S850000x128_1_0_n_n_0_1_1128_wf) K (col (wrap (srcIds e)))) := rfl

/-! ## Reading the small pieces at an index -/

/-- A list laid out as one column reads, at row `e`, the list's entry `e`. -/
theorem col_apply {α : Type} (v : (⟨1, ![850000]⟩ : Shape).Idx → α) (e : Fin 850000) : col v (colEntry e) = v (ix1 e) := by
  unfold col
  refine broadcastInDim_apply _ _ v _ (ix1 e) fun a => ?_
  match a with
  | ⟨0, _⟩ => show e.val = if (850000 : ℕ) = 1 then 0 else e.val; rw [if_neg (by decide)]

/-- The wrap leaves a nonnegative number alone. -/
theorem wrap_of_nonneg (v : IVec (⟨1, ![850000]⟩ : Shape) 32) (e : Fin 850000) (h : 0 ≤ (v (ix1 e)).toInt) :
    wrap v (ix1 e) = v (ix1 e) := by
  show Scalar.select (IntOp.cmpi .slt (v (ix1 e)) (0#32)) (IntOp.addi (v (ix1 e)) (50000#32)) (v (ix1 e)) = v (ix1 e)
  have hs : (v (ix1 e)).slt (0#32) = false := by
    rw [BitVec.slt]
    simpa using h
  unfold IntOp.cmpi Scalar.select
  simp [hs]

theorem cmpf_ideal (p : CmpFPredicate) (x y : EReal) : FloatOps.cmpf (F := Ideal) (φ := .f32) p x y = Ideal.cmp p x y := rfl

/-- Every factor is a nonnegative finite number. -/
theorem factors_range (e : Edges) (r : Fin 50000) : 0 ≤ factors (F := Ideal) e (ix1 r) ∧ factors (F := Ideal) e (ix1 r) ≠ ⊤ := by
  rw [Cert.ReferenceIdeal.Spec.factors_apply, cmpf_ideal, Ideal.hostUnary_rsqrt_def, Ideal.ofBits_def, Ideal.ofBits_zero_f32]
  exact guarded_rsqrt_range _

/-- The factors' column at row `r` is node `r`'s factor. -/
theorem factorColumn_apply (e : Edges) (r : Fin 50000) (u : Fin 1) : factorColumn e (ix2 r u) = factors (F := Ideal) e (ix1 r) :=
  shapeCast_a_a1_apply _ _ r u

/-- A bias laid out as one row reads the bias at the column. -/
theorem biasRow_apply (b : (⟨1, ![128]⟩ : Shape).Idx → EReal) (l : Fin 128) : biasRow b (ix2 (0 : Fin 1) l) = b (ix1 l) :=
  shapeCast_a_1a_apply _ _ 0 l

/-- The operand of zeros. -/
theorem zeros_zero (i : (⟨2, ![50000, 128]⟩ : Shape).Idx) : (broadcastInDim Cert.ReferenceIdeal.S50000x128 ![] Cert.ReferenceIdeal.Facts₀.bcast_S_S50000x128 (constant (F := Ideal) Cert.ReferenceIdeal.S_ .f32 0x00000000#32)) i = 0 := by
  rw [Cert.ReferenceIdeal.Spec.zeros_apply, Ideal.ofBits_def, Ideal.ofBits_zero_f32]

/-! ## One layer -/

/-- The kernel's gathered row: the product's row at the edge's source, scaled by that node's factor. -/
theorem scaled_update (P : (⟨2, ![50000, 128]⟩ : Shape).Idx → EReal) (e : Edges) (hN : 0 < 50000) (e' : Fin 850000) (l' : Fin 128) :
    Host.gather (rowGatherDims 50000 850000 128 Cert.ReferenceIdeal.Facts₀.gather_S50000x128_S850000x1_S850000x128_1_0_n_n_0_1_1128_wf) (fun i => P i * factorColumn e (ix2 (i 0) (0 : Fin 1)))
        (col (wrap (srcIds e))) (ix2 e' l')
      = P (ix2 (clampRow hN (col (wrap (srcIds e))) e') l')
        * factors (F := Ideal) e (ix1 (clampRow hN (col (wrap (srcIds e))) e')) := by
  rw [gather_rows_apply hN]
  show P (ix2 (clampRow hN (col (wrap (srcIds e))) e') l') * factorColumn e (ix2 (clampRow hN (col (wrap (srcIds e))) e') (0 : Fin 1)) = _
  rw [factorColumn_apply]

/-- The reference's weighed row: the product's row at the edge's source, times the two ends' factors. -/
theorem weighed_update (P : (⟨2, ![50000, 128]⟩ : Shape).Idx → EReal) (e : Edges) (hN : 0 < 50000) (e' : Fin 850000) (l' : Fin 128) :
    weighedRows (F := Ideal) P e (ix2 e' l')
      = P (ix2 (clampRow hN (col (wrap (srcIds e))) e') l')
        * (factors (F := Ideal) e (ix1 (clampRow hN (col (wrap (srcIds e))) e'))
          * factors (F := Ideal) e (ix1 (clampRow hN (col (wrap (dstIds e))) e'))) := by
  rw [Cert.ReferenceIdeal.Spec.weighedRows_apply, Ideal.mulf_def, ref_gather_rows_eq, gather_rows_apply hN, row_factors_apply,
    Cert.ReferenceIdeal.Spec.edgeWeights_apply, Ideal.mulf_def, ref_gather_vec_eq, ref_gather_vec_eq, gather_vec_apply hN, gather_vec_apply hN]

/-- THE LAYER: scale by the factors, aggregate, scale again, add the bias and clip — the kernel's order — is the
    reference's layer with the edges weighed by the product of the two ends' factors. -/
theorem layer_eq (P : (⟨2, ![50000, 128]⟩ : Shape).Idx → EReal) (e : Edges) (b : (⟨1, ![128]⟩ : Shape).Idx → EReal) :
    activated (aggregate (fun i => P i * factorColumn e (ix2 (i 0) (0 : Fin 1))) e) (factorColumn e) (biasRow b)
      = conv (F := Ideal) P e b := by
  funext i
  obtain ⟨r, l, rfl⟩ : ∃ (r : Fin 50000) (l : Fin 128), i = ix2 r l := ⟨i 0, i 1, eq_ix2 i⟩
  have hN : 0 < 50000 := by decide
  rw [Cert.ReferenceIdeal.Spec.conv_apply, Ideal.maximumf_def, Ideal.addf_def, Ideal.ofBits_def, bias_rows_apply, ref_scatter_eq]
  show max (aggregate (fun i => P i * factorColumn e (ix2 (i 0) (0 : Fin 1))) e (ix2 r l) * factorColumn e (ix2 r (0 : Fin 1))
      + biasRow b (ix2 (0 : Fin 1) l)) (Ideal.ofBits .f32 0x00000000#32) = _
  rw [factorColumn_apply, biasRow_apply, aggregate_eq]
  refine congrArg (fun s => max (s + b (ix1 l)) (Ideal.ofBits .f32 0x00000000#32)) ?_
  exact scaled_scatter_rows (N := 50000) (E := 850000) (C := 128) hN Cert.ReferenceIdeal.Facts₀.scatter_S50000x128_S850000x1_S850000x128_1_0_0_1_wf P (factors (F := Ideal) e) (factors_range e)
    (col (wrap (srcIds e))) (col (dstIds e)) (col (wrap (dstIds e)))
    (fun e' h => by
      rw [col_apply] at h
      rw [col_apply, col_apply]
      exact wrap_of_nonneg _ e' h)
    (broadcastInDim Cert.ReferenceIdeal.S50000x128 ![] Cert.ReferenceIdeal.Facts₀.bcast_S_S50000x128 (constant (F := Ideal) Cert.ReferenceIdeal.S_ .f32 0x00000000#32)) zeros_zero _ (weighedRows (F := Ideal) P e) (scaled_update P e hN) (weighed_update P e hN) r l

/-! ## The three stages -/

theorem ref_dot_eq (x : (⟨2, ![50000, 128]⟩ : Shape).Idx → EReal) (w : (⟨2, ![128, 128]⟩ : Shape).Idx → EReal) :
    Host.dotGeneral (F := Ideal) (φ₁ := .f32) (φ₂ := .f32) Cert.ReferenceIdeal.dot_S50000x128_S128x128_S50000x128_1_0_0_1_n_n none x w = mm x w :=
  dotGeneral_eq_mm Cert.ReferenceIdeal.Facts₀.dot_S50000x128_S128x128_S50000x128_1_0_0_1_n_n_wf none x w

theorem ref_dot_head_eq (x : (⟨2, ![50000, 128]⟩ : Shape).Idx → EReal) (w : (⟨2, ![128, 1]⟩ : Shape).Idx → EReal) :
    Host.dotGeneral (F := Ideal) (φ₁ := .f32) (φ₂ := .f32) Cert.ReferenceIdeal.dot_S50000x128_S128x1_S50000x1_1_0_0_1_n_n none x w = mm x w :=
  dotGeneral_eq_mm Cert.ReferenceIdeal.Facts₀.dot_S50000x128_S128x1_S50000x1_1_0_0_1_n_n_wf none x w

/-- After the first aggregation, scaling, bias and clip the kernel holds the reference's first layer. -/
theorem first_layer (x : (⟨2, ![50000, 128]⟩ : Shape).Idx → EReal) (e : Edges) (w1 : (⟨2, ![128, 128]⟩ : Shape).Idx → EReal) (b1 : (⟨1, ![128]⟩ : Shape).Idx → EReal) :
    activated (aggregate (stage0 x e w1) e) (factorColumn e) (biasRow b1)
      = conv (F := Ideal) (Host.dotGeneral (F := Ideal) (φ₁ := .f32) (φ₂ := .f32) Cert.ReferenceIdeal.dot_S50000x128_S128x128_S50000x128_1_0_0_1_n_n none x w1) e b1 :=
  (congrArg (fun P : (⟨2, ![50000, 128]⟩ : Shape).Idx → EReal =>
      activated (aggregate (fun i => P i * factorColumn e (ix2 (i 0) (0 : Fin 1))) e) (factorColumn e) (biasRow b1))
    (ref_dot_eq x w1).symm).trans (layer_eq _ e b1)

/-- After the second aggregation, scaling, bias and clip the kernel holds the reference's hidden features. -/
theorem second_layer (x : (⟨2, ![50000, 128]⟩ : Shape).Idx → EReal) (e : Edges) (w1 : (⟨2, ![128, 128]⟩ : Shape).Idx → EReal) (b1 : (⟨1, ![128]⟩ : Shape).Idx → EReal) (w2 : (⟨2, ![128, 128]⟩ : Shape).Idx → EReal) (b2 : (⟨1, ![128]⟩ : Shape).Idx → EReal) :
    activated (aggregate (stage1 x e w1 b1 w2) e) (factorColumn e) (biasRow b2) = hidden (F := Ideal) x e w1 b1 w2 b2 := by
  show activated (aggregate (fun i => mm (activated (aggregate (stage0 x e w1) e) (factorColumn e) (biasRow b1)) w2 i
      * factorColumn e (ix2 (i 0) (0 : Fin 1))) e) (factorColumn e) (biasRow b2) = _
  rw [first_layer]
  exact (congrArg (fun P : (⟨2, ![50000, 128]⟩ : Shape).Idx → EReal =>
      activated (aggregate (fun i => P i * factorColumn e (ix2 (i 0) (0 : Fin 1))) e) (factorColumn e) (biasRow b2))
    (ref_dot_eq _ w2).symm).trans (layer_eq _ e b2)

/-! ## The two heads -/

/-- THE FIRST RESULT: column 0 of the kernel's last stage is the reference's first head of the hidden features. -/
theorem result0_eq (x : (⟨2, ![50000, 128]⟩ : Shape).Idx → EReal) (e : Edges) (w1 : (⟨2, ![128, 128]⟩ : Shape).Idx → EReal) (b1 : (⟨1, ![128]⟩ : Shape).Idx → EReal) (w2 : (⟨2, ![128, 128]⟩ : Shape).Idx → EReal) (b2 : (⟨1, ![128]⟩ : Shape).Idx → EReal) (wt : (⟨2, ![128, 1]⟩ : Shape).Idx → EReal) (bt : (⟨1, ![1]⟩ : Shape).Idx → EReal) (we : (⟨2, ![128, 1]⟩ : Shape).Idx → EReal) (be : (⟨1, ![1]⟩ : Shape).Idx → EReal) :
    result0 x e w1 b1 w2 b2 wt bt we be = head (F := Ideal) (hidden (F := Ideal) x e w1 b1 w2 b2) wt bt := by
  funext i
  obtain ⟨r, u, rfl⟩ : ∃ (r : Fin 50000) (u : Fin 1), i = ix2 r u := ⟨i 0, i 1, eq_ix2 i⟩
  obtain rfl : u = 0 := Subsingleton.elim _ _
  rw [Cert.ReferenceIdeal.Spec.head_apply, Ideal.addf_def, bias_rows_apply, ref_dot_head_eq]
  have hs : result0 x e w1 b1 w2 b2 wt bt we be (ix2 r (0 : Fin 1)) = stage2 x e w1 b1 w2 b2 wt bt we be (ix2 r (0 : Fin 2)) :=
    extractStridedSlice_apply _ _ _ (ix2 r (0 : Fin 1)) (ix2 r (0 : Fin 2)) (fun a => by
      match a with
      | ⟨0, _⟩ => show r.val = 0 + r.val; omega
      | ⟨1, _⟩ => show 0 = 0 + 0; rfl)
  rw [hs]
  show mm (activated (aggregate (stage1 x e w1 b1 w2) e) (factorColumn e) (biasRow b2)) (headWeights wt we) (ix2 r (0 : Fin 2))
    + headConstants bt be (ix2 (0 : Fin 1) (0 : Fin 2)) = _
  rw [second_layer]
  have hm : mm (hidden (F := Ideal) x e w1 b1 w2 b2) (headWeights wt we) (ix2 r (0 : Fin 2))
      = mm (hidden (F := Ideal) x e w1 b1 w2 b2) wt (ix2 r (0 : Fin 1)) :=
    mm_of_row_col (hidden (F := Ideal) x e w1 b1 w2 b2) wt (hidden (F := Ideal) x e w1 b1 w2 b2) (headWeights wt we)
      (ix2 r (0 : Fin 2)) (ix2 r (0 : Fin 1)) (fun c => rfl)
      (fun c => concat_cols_left wt we _ c (0 : Fin 1) (0 : Fin 2) rfl)
  have hc : headConstants bt be (ix2 (0 : Fin 1) (0 : Fin 2)) = bt (ix1 (0 : Fin 1)) :=
    (shapeCast_a_1a_apply _ _ 0 (0 : Fin 2)).trans (concat_vec_first bt be _ (0 : Fin 1) (0 : Fin 2) rfl)
  rw [hm, hc]

/-- THE SECOND RESULT: column 1 of the kernel's last stage is the reference's second head of the hidden features. -/
theorem result1_eq (x : (⟨2, ![50000, 128]⟩ : Shape).Idx → EReal) (e : Edges) (w1 : (⟨2, ![128, 128]⟩ : Shape).Idx → EReal) (b1 : (⟨1, ![128]⟩ : Shape).Idx → EReal) (w2 : (⟨2, ![128, 128]⟩ : Shape).Idx → EReal) (b2 : (⟨1, ![128]⟩ : Shape).Idx → EReal) (wt : (⟨2, ![128, 1]⟩ : Shape).Idx → EReal) (bt : (⟨1, ![1]⟩ : Shape).Idx → EReal) (we : (⟨2, ![128, 1]⟩ : Shape).Idx → EReal) (be : (⟨1, ![1]⟩ : Shape).Idx → EReal) :
    result1 x e w1 b1 w2 b2 wt bt we be = head (F := Ideal) (hidden (F := Ideal) x e w1 b1 w2 b2) we be := by
  funext i
  obtain ⟨r, u, rfl⟩ : ∃ (r : Fin 50000) (u : Fin 1), i = ix2 r u := ⟨i 0, i 1, eq_ix2 i⟩
  obtain rfl : u = 0 := Subsingleton.elim _ _
  rw [Cert.ReferenceIdeal.Spec.head_apply, Ideal.addf_def, bias_rows_apply, ref_dot_head_eq]
  have hs : result1 x e w1 b1 w2 b2 wt bt we be (ix2 r (0 : Fin 1)) = stage2 x e w1 b1 w2 b2 wt bt we be (ix2 r (1 : Fin 2)) :=
    extractStridedSlice_apply _ _ _ (ix2 r (0 : Fin 1)) (ix2 r (1 : Fin 2)) (fun a => by
      match a with
      | ⟨0, _⟩ => show r.val = 0 + r.val; omega
      | ⟨1, _⟩ => show 1 = 1 + 0; rfl)
  rw [hs]
  show mm (activated (aggregate (stage1 x e w1 b1 w2) e) (factorColumn e) (biasRow b2)) (headWeights wt we) (ix2 r (1 : Fin 2))
    + headConstants bt be (ix2 (0 : Fin 1) (1 : Fin 2)) = _
  rw [second_layer]
  have hm : mm (hidden (F := Ideal) x e w1 b1 w2 b2) (headWeights wt we) (ix2 r (1 : Fin 2))
      = mm (hidden (F := Ideal) x e w1 b1 w2 b2) we (ix2 r (0 : Fin 1)) :=
    mm_of_row_col (hidden (F := Ideal) x e w1 b1 w2 b2) we (hidden (F := Ideal) x e w1 b1 w2 b2) (headWeights wt we)
      (ix2 r (1 : Fin 2)) (ix2 r (0 : Fin 1)) (fun c => rfl)
      (fun c => concat_cols_right wt we _ c (0 : Fin 1) (1 : Fin 2) rfl)
  have hc : headConstants bt be (ix2 (0 : Fin 1) (1 : Fin 2)) = be (ix1 (0 : Fin 1)) :=
    (shapeCast_a_1a_apply _ _ 0 (1 : Fin 2)).trans (concat_vec_second bt be _ (0 : Fin 1) (1 : Fin 2) rfl)
  rw [hm, hc]

end Cert.Gcn.Bridge

end
-- ==== Proof.lean ====
/-
  A two-layer graph convolution with two output heads: the tiled kernel against the plain reference.

  Both programs first build, from the edge list, the edges' source and destination numbers (a self-loop appended per
  node), each node's degree, and its factor f = degree^(-1/2) (0 where the degree is not positive). The reference
  weighs every edge by f(source) · f(destination), gathers the rows of X·W along the edges, weighs them, sums them per
  destination, adds the bias and clips at zero — twice — and finishes with two matrix-vector heads. The kernel
  instead scales the rows of X·W by f before the gather and scales the per-destination sums by f again afterwards,
  inside three tiled matrix-product kernels, and computes both heads as one product with the two weight columns side
  by side. At the exact extended reals the two are the same function of the ten arguments: a format change is the
  identity, a tiled product is the product, and a nonnegative finite factor moves in and out of a finite sum.

  The proof: the kernel's run leaves each result buffer at a fold through @main's segments; that fold is read
  boundary by boundary as a chain of whole-array values (the three kernels' outputs are whole-array functions
  because their ten row blocks tile the arrays); the reference's run leaves its results at its stages composed; and
  the two compositions are equal layer by layer. The three frames are the programs' runs with the results forgotten;
  the idealization rewrote nothing, so there is nothing to preserve.
-/
import proofs.«110548_j47682726920388_2_alg».proof.Defs
import proofs.«110548_j47682726920388_2_alg».proof.Proof.Gen.Kernel
import proofs.«110548_j47682726920388_2_alg».proof.Proof.Gen.Kernel.Frame
import proofs.«110548_j47682726920388_2_alg».proof.Proof.Gen.KernelIdeal
import proofs.«110548_j47682726920388_2_alg».proof.Proof.Gen.KernelIdeal.Frame
import proofs.«110548_j47682726920388_2_alg».proof.Proof.Gen.ReferenceIdeal
import proofs.«110548_j47682726920388_2_alg».proof.Proof.Gen.Pre_finite_inputs
import proofs.«110548_j47682726920388_2_alg».proof.Proof.KernelRun
import proofs.«110548_j47682726920388_2_alg».proof.Proof.KernelChain
import proofs.«110548_j47682726920388_2_alg».proof.Proof.RefFoldRun
import proofs.«110548_j47682726920388_2_alg».proof.Proof.RefValue
import proofs.«110548_j47682726920388_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The kernel as printed runs and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs, and none of its operations writes an argument. -/
theorem frame_reference : Cert.frame_ReferenceIdeal := fun m ρ _ =>
  (θ_run Cert.ReferenceIdeal.defs _ _).mono (fun _ h c =>
    ⟨(h c Cert.ReferenceIdeal.main_arg0).trans (Cert.ReferenceIdeal.Spec.kept_arg0 (launchContents m c)),
      (h c Cert.ReferenceIdeal.main_arg1).trans (Cert.ReferenceIdeal.Spec.kept_arg1 (launchContents m c)),
      (h c Cert.ReferenceIdeal.main_arg2).trans (Cert.ReferenceIdeal.Spec.kept_arg2 (launchContents m c)),
      (h c Cert.ReferenceIdeal.main_arg3).trans (Cert.ReferenceIdeal.Spec.kept_arg3 (launchContents m c)),
      (h c Cert.ReferenceIdeal.main_arg4).trans (Cert.ReferenceIdeal.Spec.kept_arg4 (launchContents m c)),
      (h c Cert.ReferenceIdeal.main_arg5).trans (Cert.ReferenceIdeal.Spec.kept_arg5 (launchContents m c)),
      (h c Cert.ReferenceIdeal.main_arg6).trans (Cert.ReferenceIdeal.Spec.kept_arg6 (launchContents m c)),
      (h c Cert.ReferenceIdeal.main_arg7).trans (Cert.ReferenceIdeal.Spec.kept_arg7 (launchContents m c)),
      (h c Cert.ReferenceIdeal.main_arg8).trans (Cert.ReferenceIdeal.Spec.kept_arg8 (launchContents m c)),
      (h c Cert.ReferenceIdeal.main_arg9).trans (Cert.ReferenceIdeal.Spec.kept_arg9 (launchContents m c))⟩)
    (Cert.ReferenceIdeal.FoldRun.run (F := Ideal) m ρ)

/-- The idealization rewrote no operation. -/
theorem preserves : Cert.preserves_Kernel_KernelIdeal := trivial

/-- From memories agreeing on the arguments both programs end with the same two arrays: the kernel's chain of values,
    which is the reference's two heads of the twice-convolved features. -/
theorem algebraic : Cert.algebraic_KernelIdeal_ReferenceIdeal := by
  intro m ρ m' ρ' _ hagree
  refine ⟨fun c => Cert.KernelIdeal.Chain.result0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.KernelIdeal.Chain.result1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.at9_v48 m ρ c), (h c).2.1.trans (Cert.KernelIdeal.Chain.at9_v49 m ρ c), (h c).2.2⟩)
      (Cert.KernelIdeal.NamedRun.run_named (F := Ideal) m ρ)
  · refine (θ_run Cert.ReferenceIdeal.defs _ _).mono (fun r h c => ?_) (Cert.ReferenceIdeal.FoldRun.run (F := Ideal) m' ρ')
    obtain ⟨e0, e1, e2, e3, e4, e5, e6, e7, e8, e9⟩ := hagree c
    refine ⟨?_, ?_,
      (h c Cert.ReferenceIdeal.main_arg0).trans (Cert.ReferenceIdeal.Spec.kept_arg0 (launchContents m' c)),
      (h c Cert.ReferenceIdeal.main_arg1).trans (Cert.ReferenceIdeal.Spec.kept_arg1 (launchContents m' c)),
      (h c Cert.ReferenceIdeal.main_arg2).trans (Cert.ReferenceIdeal.Spec.kept_arg2 (launchContents m' c)),
      (h c Cert.ReferenceIdeal.main_arg3).trans (Cert.ReferenceIdeal.Spec.kept_arg3 (launchContents m' c)),
      (h c Cert.ReferenceIdeal.main_arg4).trans (Cert.ReferenceIdeal.Spec.kept_arg4 (launchContents m' c)),
      (h c Cert.ReferenceIdeal.main_arg5).trans (Cert.ReferenceIdeal.Spec.kept_arg5 (launchContents m' c)),
      (h c Cert.ReferenceIdeal.main_arg6).trans (Cert.ReferenceIdeal.Spec.kept_arg6 (launchContents m' c)),
      (h c Cert.ReferenceIdeal.main_arg7).trans (Cert.ReferenceIdeal.Spec.kept_arg7 (launchContents m' c)),
      (h c Cert.ReferenceIdeal.main_arg8).trans (Cert.ReferenceIdeal.Spec.kept_arg8 (launchContents m' c)),
      (h c Cert.ReferenceIdeal.main_arg9).trans (Cert.ReferenceIdeal.Spec.kept_arg9 (launchContents m' c))⟩
    · refine (h c Cert.ReferenceIdeal.main_v69).trans ((Cert.ReferenceIdeal.Spec.first_result (launchContents m' c)).trans ?_)
      show Cert.ReferenceIdeal.Spec.head (F := Ideal) (Cert.ReferenceIdeal.Spec.hidden (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))
        (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
      rw [e0, e1, e2, e3, e4, e5, e6, e7]
      exact (Cert.Gcn.Bridge.result0_eq _ _ _ _ _ _ _ _ _ _).symm
    · refine (h c Cert.ReferenceIdeal.main_v73).trans ((Cert.ReferenceIdeal.Spec.second_result (launchContents m' c)).trans ?_)
      show Cert.ReferenceIdeal.Spec.head (F := Ideal) (Cert.ReferenceIdeal.Spec.hidden (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))
        (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
      rw [e0, e1, e2, e3, e4, e5, e8, e9]
      exact (Cert.Gcn.Bridge.result1_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
